-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S_, .f32⟩
  | .hbm, ⟨54, _⟩ => ⟨S100000x128, .f32⟩
  | .hbm, ⟨55, _⟩ => ⟨S1700000x1, .i32⟩
  | .hbm, ⟨56, _⟩ => ⟨S100000x128, .f32⟩
  | .hbm, ⟨57, _⟩ => ⟨S1x128, .f32⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S128x128, .f32⟩
  | .local _ .vmem, ⟨11, _⟩ => ⟨S5000x1, .f32⟩
  | .local _ .vmem, ⟨12, _⟩ => ⟨S5000x1, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x1, .f32⟩
  | .local _ .vmem, ⟨19, _⟩ => ⟨S5000x1, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x128, .f32⟩
  | .hbm, ⟨115, _⟩ => ⟨S1700000x1, .f32⟩
  | .hbm, ⟨116, _⟩ => ⟨S1700000x128, .f32⟩
  | .hbm, ⟨117, _⟩ => ⟨S1700000x128, .f32⟩
  | .hbm, ⟨118, _⟩ => ⟨S_, .f32⟩
  | .hbm, ⟨119, _⟩ => ⟨S100000x128, .f32⟩
  | .hbm, ⟨120, _⟩ => ⟨S1700000x1, .i32⟩
  | .hbm, ⟨121, _⟩ => ⟨S100000x128, .f32⟩
  | .hbm, ⟨122, _⟩ => ⟨S1x128, .f32⟩
  | .hbm, ⟨123, _⟩ => ⟨S100000x128, .f32⟩
  | .hbm, ⟨124, _⟩ => ⟨S100000x128, .f32⟩
  | .hbm, ⟨125, _⟩ => ⟨S_, .f32⟩
  | .hbm, ⟨126, _⟩ => ⟨S100000x128, .f32⟩
  | .hbm, ⟨127, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  THE KERNEL'S RUN WITH ITS RESULT NAMED. Every weakly fair execution of the program of three pallas_calls among its
  host operations terminates without a fault, its six argument arrays end as launched, and its result array ends at the
  contents the run's last boundary gives it: the buffer contents after the third call, which are the second call's exit
  contents pushed through the host operations in between with the third call's output written over them.
-/
import proofs.«164105_j3015067041913_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run_out : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.GcnRun

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.KernelPay.lean ====
/-
  WHAT EACH KERNEL BODY STORES, ENTRY BY ENTRY, ON THE EXTENDED REALS.

  A body works on a block of 5000 rows. With A the block of features or aggregated messages, W the 128×128 weight
  matrix, d the block's column of per-node weights and b the bias row:

    first body:   (A·W)[p, q] · d[p]
    second body:  (max (A[p, ·] · d[p] + b) 0 · W)[q] · d[p]
    third body:   max (A[p, q] · d[p] + b[q]) 0

  A change of float format is the identity here, the matrix unit's product into a zero accumulator is the plain sum over
  the contracted axis, and the layout operations only re-read their operand: a column [5000, 1] or a row [1, 128]
  stretched over the block.
-/
import proofs.«164105_j3015067041913_2_alg».proof.Proof.Gen.KernelIdeal.Skeleton
import proofs.«164105_j3015067041913_2_alg».proof.Proof.LibMatmulIx
import proofs.«164105_j3015067041913_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GcnPay

open Cert.KernelIdeal Cert.KernelIdeal.Gen Idealize.ShloMosaic Idealize.ShloMosaic.ValueIdx

/-! ## The contraction's index maps: row of the left operand, column of the right -/

theorem dd_rank : dot_S5000x128_S128x128_S5000x128_1_0_0_1_n_n.contr.rank = 1 := rfl
theorem dd_size : dot_S5000x128_S128x128_S5000x128_1_0_0_1_n_n.contr.size ⟨0, by decide⟩ = 128 := rfl

theorem dd_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dd_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dd_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dd_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix unit's product into the zero accumulator at (p, q): row p of the left operand against column q. -/
theorem mm_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) :=
  MatmulIx.matmul_zero_ix2 dot_S5000x128_S128x128_S5000x128_1_0_0_1_n_n dd_rank dd_size dd_l0 dd_l1 dd_r0 dd_r1 none x w p q

/-- The zero the bodies clip at. -/
theorem zero_eq : (Scalar.ofBits (F := Ideal) .f32 0x00000000#32 : EReal) = 0 := Ideal.ofBits_zero_f32

/-! ## The three payloads at (p, q) -/

/-- First body: (A·W)[p, q] · d[p]. -/
theorem pay0_apply (a : Vec Ideal S5000x128 .f32) (w : Vec Ideal S128x128 .f32) (d : Vec Ideal S5000x1 .f32)
    (p : Fin 5000) (q : Fin 128) :
    k0_pay1 a w d (ix2 p q) = (∑ k : Fin 128, a (ix2 p k) * w (ix2 k q)) * d (ix2 p (0 : Fin 1)) := by
  unfold k0_pay1
  show matmul dot_S5000x128_S128x128_S5000x128_1_0_0_1_n_n none (truncf .bf16 a bitsLt_bf16_f32) (truncf .bf16 w bitsLt_bf16_f32)
      (constant (F := Ideal) S5000x128 .f32 0x00000000#32) (ix2 p q)
    * broadcastTo S5000x128 (shapeCast S5000x1 d shapeCasts_S5000x1_S5000x1) broadcasts_S5000x1_S5000x128 (ix2 p q) = _
  simp only [shapeCast_self]
  rw [mm_apply, Cert.Attn.Layout.broadcastTo_a1_ab_apply]
  rfl

/-- Second body: (max (A[p, ·] · d[p] + b) 0 · W)[q] · d[p]. -/
theorem pay1_apply (d : Vec Ideal S5000x1 .f32) (a : Vec Ideal S5000x128 .f32) (b : Vec Ideal S1x128 .f32) (w : Vec Ideal S128x128 .f32)
    (p : Fin 5000) (q : Fin 128) :
    k1_pay1 d a b w (ix2 p q)
      = (∑ k : Fin 128, max (a (ix2 p k) * d (ix2 p (0 : Fin 1)) + b (ix2 (0 : Fin 1) k)) 0 * w (ix2 k q)) * d (ix2 p (0 : Fin 1)) := by
  unfold k1_pay1
  show matmul dot_S5000x128_S128x128_S5000x128_1_0_0_1_n_n none
      (truncf .bf16 (maximumf (addf (mulf (shapeCast S5000x128 a shapeCasts_S5000x128_S5000x128)
          (broadcastTo S5000x128 (shapeCast S5000x1 d shapeCasts_S5000x1_S5000x1) broadcasts_S5000x1_S5000x128))
          (broadcastTo S5000x128 (shapeCast S1x128 b shapeCasts_S1x128_S1x128) broadcasts_S1x128_S5000x128))
        (broadcast S5000x128 (Scalar.ofBits (F := Ideal) .f32 0x00000000#32))) bitsLt_bf16_f32)
      (truncf .bf16 w bitsLt_bf16_f32) (constant (F := Ideal) S5000x128 .f32 0x00000000#32) (ix2 p q)
    * broadcastTo S5000x128 (shapeCast S5000x1 d shapeCasts_S5000x1_S5000x1) broadcasts_S5000x1_S5000x128 (ix2 p q) = _
  simp only [shapeCast_self]
  rw [mm_apply, Cert.Attn.Layout.broadcastTo_a1_ab_apply]
  refine congrArg (· * d (ix2 p (0 : Fin 1))) (Finset.sum_congr rfl fun k _ => ?_)
  show max (a (ix2 p k) * broadcastTo S5000x128 d broadcasts_S5000x1_S5000x128 (ix2 p k)
      + broadcastTo S5000x128 b broadcasts_S1x128_S5000x128 (ix2 p k))
      (Scalar.ofBits (F := Ideal) .f32 0x00000000#32) * w (ix2 k q) = _
  rw [Cert.Attn.Layout.broadcastTo_a1_ab_apply, ValueIdx.broadcastTo_1b_ab_apply, zero_eq]

/-- Third body: max (A[p, q] · d[p] + b[q]) 0. -/
theorem pay2_apply (d : Vec Ideal S5000x1 .f32) (a : Vec Ideal S5000x128 .f32) (b : Vec Ideal S1x128 .f32)
    (p : Fin 5000) (q : Fin 128) :
    k2_pay1 d a b (ix2 p q) = max (a (ix2 p q) * d (ix2 p (0 : Fin 1)) + b (ix2 (0 : Fin 1) q)) 0 := by
  unfold k2_pay1
  show max (shapeCast S5000x128 a shapeCasts_S5000x128_S5000x128 (ix2 p q)
        * broadcastTo S5000x128 (shapeCast S5000x1 d shapeCasts_S5000x1_S5000x1) broadcasts_S5000x1_S5000x128 (ix2 p q)
      + broadcastTo S5000x128 (shapeCast S1x128 b shapeCasts_S1x128_S1x128) broadcasts_S1x128_S5000x128 (ix2 p q))
      (Scalar.ofBits (F := Ideal) .f32 0x00000000#32) = _
  simp only [shapeCast_self]
  rw [Cert.Attn.Layout.broadcastTo_a1_ab_apply, ValueIdx.broadcastTo_1b_ab_apply, zero_eq]

end Cert.KernelIdeal.GcnPay

end
-- ==== Proof.KernelRegions.lean ====
/-
  EACH PALLAS_CALL AS ONE FUNCTION OF THE ARRAYS IT FINDS.

  Each call walks 20 grid points; point t takes rows 5000·t … 5000·t + 4999 of its row-blocked operands (the features or
  aggregated messages [100000, 128] and the per-node weight column [100000, 1]), the whole weight matrix and bias row,
  and writes the same rows of its output. The body's value at a row depends on that row of the operands only, so
  what point t writes back is block t of ONE whole-array function, and the 20 blocks fill the output array:

    G0 X W d   [n, c] = (X·W)[n, c] · d[n]
    G1 d A b W [n, c] = (max (A[n, ·] · d[n] + b) 0 · W)[c] · d[n]
    G2 d A b   [n, c] = max (A[n, c] · d[n] + b[c]) 0
-/
import proofs.«164105_j3015067041913_2_alg».proof.Proof.Gen.KernelIdeal.Frame
import proofs.«164105_j3015067041913_2_alg».proof.Proof.KernelPay

set_option maxRecDepth 16384

noncomputable section

namespace Cert.KernelIdeal.GcnRegions

open Cert.KernelIdeal Cert.KernelIdeal.Gen Cert.KernelIdeal.GcnPay
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The three whole-array functions -/

/-- (X·W)[n, c] · d[n] -/
def G0 (X : S100000x128.Idx → EReal) (W : S128x128.Idx → EReal) (d : S100000x1.Idx → EReal) : S100000x128.Idx → EReal :=
  fun i => (∑ k : Fin 128, X (ix2 (i 0) k) * W (ix2 k (i 1))) * d (ix2 (i 0) (0 : Fin 1))

/-- (max (A[n, ·] · d[n] + b) 0 · W)[c] · d[n] -/
def G1 (d : S100000x1.Idx → EReal) (A : S100000x128.Idx → EReal) (b : S1x128.Idx → EReal) (W : S128x128.Idx → EReal) :
    S100000x128.Idx → EReal :=
  fun i => (∑ k : Fin 128, max (A (ix2 (i 0) k) * d (ix2 (i 0) (0 : Fin 1)) + b (ix2 (0 : Fin 1) k)) 0 * W (ix2 k (i 1)))
    * d (ix2 (i 0) (0 : Fin 1))

/-- max (A[n, c] · d[n] + b[c]) 0 -/
def G2 (d : S100000x1.Idx → EReal) (A : S100000x128.Idx → EReal) (b : S1x128.Idx → EReal) : S100000x128.Idx → EReal :=
  fun i => max (A i * d (ix2 (i 0) (0 : Fin 1)) + b (ix2 (0 : Fin 1) (i 1))) 0

/-! ## A body's value at a block entry is the whole-array function at the matching array entry -/

theorem blk0 (a : Vec Ideal S5000x128 .f32) (w : Vec Ideal S128x128 .f32) (d : Vec Ideal S5000x1 .f32)
    (X : S100000x128.Idx → EReal) (W : S128x128.Idx → EReal) (dv : S100000x1.Idx → EReal) (y : S5000x128.Idx) (i : S100000x128.Idx)
    (ha : ∀ k : Fin 128, a (ix2 (y 0) k) = X (ix2 (i 0) k))
    (hw : ∀ k : Fin 128, w (ix2 k (y 1)) = W (ix2 k (i 1)))
    (hd : d (ix2 (y 0) (0 : Fin 1)) = dv (ix2 (i 0) (0 : Fin 1))) :
    k0_pay1 a w d y = G0 X W dv i := by
  refine ((congrArg (k0_pay1 a w d) (eq_ix2 y)).trans (pay0_apply a w d (y 0) (y 1))).trans ?_
  unfold G0
  rw [hd]
  exact congrArg (· * dv (ix2 (i 0) (0 : Fin 1))) (Finset.sum_congr rfl fun k _ => by rw [ha k, hw k])

theorem blk1 (d : Vec Ideal S5000x1 .f32) (a : Vec Ideal S5000x128 .f32) (b : Vec Ideal S1x128 .f32) (w : Vec Ideal S128x128 .f32)
    (dv : S100000x1.Idx → EReal) (A : S100000x128.Idx → EReal) (B : S1x128.Idx → EReal) (W : S128x128.Idx → EReal)
    (y : S5000x128.Idx) (i : S100000x128.Idx)
    (hd : d (ix2 (y 0) (0 : Fin 1)) = dv (ix2 (i 0) (0 : Fin 1)))
    (ha : ∀ k : Fin 128, a (ix2 (y 0) k) = A (ix2 (i 0) k))
    (hb : ∀ k : Fin 128, b (ix2 (0 : Fin 1) k) = B (ix2 (0 : Fin 1) k))
    (hw : ∀ k : Fin 128, w (ix2 k (y 1)) = W (ix2 k (i 1))) :
    k1_pay1 d a b w y = G1 dv A B W i := by
  refine ((congrArg (k1_pay1 d a b w) (eq_ix2 y)).trans (pay1_apply d a b w (y 0) (y 1))).trans ?_
  unfold G1
  rw [hd]
  exact congrArg (· * dv (ix2 (i 0) (0 : Fin 1))) (Finset.sum_congr rfl fun k _ => by rw [ha k, hb k, hw k])

theorem blk2 (d : Vec Ideal S5000x1 .f32) (a : Vec Ideal S5000x128 .f32) (b : Vec Ideal S1x128 .f32)
    (dv : S100000x1.Idx → EReal) (A : S100000x128.Idx → EReal) (B : S1x128.Idx → EReal)
    (y : S5000x128.Idx) (i : S100000x128.Idx)
    (hd : d (ix2 (y 0) (0 : Fin 1)) = dv (ix2 (i 0) (0 : Fin 1)))
    (ha : a (ix2 (y 0) (y 1)) = A i)
    (hb : b (ix2 (0 : Fin 1) (y 1)) = B (ix2 (0 : Fin 1) (i 1))) :
    k2_pay1 d a b y = G2 dv A B i := by
  refine ((congrArg (k2_pay1 d a b) (eq_ix2 y)).trans (pay2_apply d a b (y 0) (y 1))).trans ?_
  unfold G2
  rw [hd, ha, hb]

variable (V : (c : Dev nD) → (b : Ref sig .tc) → Buf (Elt Ideal) ((c : Thread nD τ).loc b))

/-! ## The first call: its output array is `G0` of the arrays it finds -/

/-- The printed index maps over the 20 grid points: a row block and a column block move with the output's block, a whole
    operand stays at block (0, 0), and the output's blocks are a single column of blocks. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0 :=
  (by decide +kernel : ∀ t : Fin grid0.N, _)

/-- Every one of the 20 row blocks is some point's. -/
theorem idx_onto0 : ∀ q0 : Fin 20, ∃ t : Fin cfg0.N, win0_3.index t = ![q0.val, 0] :=
  (by decide +kernel : ∀ q0 : Fin 20, ∃ t : Fin grid0.N, win0_3.index t = ![q0.val, 0])

/-- What point `t` writes back is block `t` of `G0` of the arrays the call finds. -/
theorem flushed0 (c : Dev nD) (t : Fin cfg0.N) :
    (dat0 V c).flushed 3 t = ((cfg0.win 3).blk t).view.read (Elt Ideal) (G0 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6⟩ := idx_facts0 t
  funext y
  show k0_pay1 (iblk0 V c 0 t) (iblk0 V c 1 t) (iblk0 V c 2 t) y = G0 (V c main_arg0) (V c main_arg2) (V c main_v15) (((cfg0.win 3).blk t).view.emb y)
  refine blk0 _ _ _ _ _ _ y _ ?_ ?_ ?_
  · intro k
    show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * k.val = k.val; omega
  · intro k
    show V c main_arg2 (((cfg0.win 1).blk t).view.emb (ix2 k (y 1))) = V c main_arg2 (ix2 k ((((cfg0.win 3).blk t).view.emb y) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_3.index t (1 : Fin 2) * 128 + 1 * (y 1).val; omega
  · show V c main_v15 (((cfg0.win 2).blk t).view.emb (ix2 (y 0) (0 : Fin 1))) = V c main_v15 (ix2 ((((cfg0.win 3).blk t).view.emb y) 0) (0 : Fin 1))
    refine congrArg (V c main_v15) (funext fun a => Fin.ext ?_)
    match a with
    | ⟨0, _⟩ => show win0_2.index t (0 : Fin 2) * 5000 + 1 * (y 0).val = win0_3.index t (0 : Fin 2) * 5000 + 1 * (y 0).val; omega
    | ⟨1, _⟩ => show win0_2.index t (1 : Fin 2) * 1 + 1 * 0 = 0; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The 20 blocks of 5000 rows fill the array: row n is in block n / 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the call. -/
theorem final0 (c : Dev nD) : (dat0 V c).arrAt 3 cfg0.N = G0 (V c main_arg0) (V c main_arg2) (V c main_v15) :=
  (dat0 V c).arrAt_eq_of_cover 3 (G0 (V c main_arg0) (V c main_arg2) (V c main_v15)) (fun t _ => flushed0 V c t) (cover0)

/-! ## The second call: its output array is `G1` of the arrays it finds -/

/-- The printed index maps over the 20 grid points: a row block and a column block move with the output's block, a whole
    operand stays at block (0, 0), and the output's blocks are a single column of blocks. -/
theorem idx_facts1 : ∀ t : Fin cfg1.N, win1_3.index t (0 : Fin 2) = win1_4.index t (0 : Fin 2)
    ∧ win1_3.index t (1 : Fin 2) = 0
    ∧ win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_4.index t (1 : Fin 2) = 0 :=
  (by decide +kernel : ∀ t : Fin grid1.N, _)

/-- Every one of the 20 row blocks is some point's. -/
theorem idx_onto1 : ∀ q0 : Fin 20, ∃ t : Fin cfg1.N, win1_4.index t = ![q0.val, 0] :=
  (by decide +kernel : ∀ q0 : Fin 20, ∃ t : Fin grid1.N, win1_4.index t = ![q0.val, 0])

/-- What point `t` writes back is block `t` of `G1` of the arrays the call finds. -/
theorem flushed1 (c : Dev nD) (t : Fin cfg1.N) :
    (dat1 V c).flushed 4 t = ((cfg1.win 4).blk t).view.read (Elt Ideal) (G1 (V c main_v15) (V c main_v26) (V c main_v27) (V c main_arg4)) := by
  show (cfg1.win 4).cut (grid1.coords t) ((dat1 V c).after 4 t) = _
  rw [after1_4]
  unfold out1_4
  rw [View.canon_unit_zero hz]
  simp only [View.ld_unit_zero (S := S5000x1) hz, View.ld_unit_zero (S := S5000x128) hz, View.ld_unit_zero (S := S1x128) hz, View.ld_unit_zero (S := S128x128) hz]
  obtain ⟨e0, e1, e2, e3, e4, e5, e6, e7, e8⟩ := idx_facts1 t
  funext y
  show k1_pay1 (iblk1 V c 3 t) (iblk1 V c 0 t) (iblk1 V c 1 t) (iblk1 V c 2 t) y = G1 (V c main_v15) (V c main_v26) (V c main_v27) (V c main_arg4) (((cfg1.win 4).blk t).view.emb y)
  refine blk1 _ _ _ _ _ _ _ _ y _ ?_ ?_ ?_ ?_
  · show V c main_v15 (((cfg1.win 3).blk t).view.emb (ix2 (y 0) (0 : Fin 1))) = V c main_v15 (ix2 ((((cfg1.win 4).blk t).view.emb y) 0) (0 : Fin 1))
    refine congrArg (V c main_v15) (funext fun a => Fin.ext ?_)
    match a with
    | ⟨0, _⟩ => show win1_3.index t (0 : Fin 2) * 5000 + 1 * (y 0).val = win1_4.index t (0 : Fin 2) * 5000 + 1 * (y 0).val; omega
    | ⟨1, _⟩ => show win1_3.index t (1 : Fin 2) * 1 + 1 * 0 = 0; omega
  · intro k
    show V c main_v26 (((cfg1.win 0).blk t).view.emb (ix2 (y 0) k)) = V c main_v26 (ix2 ((((cfg1.win 4).blk t).view.emb y) 0) k)
    refine congrArg (V c main_v26) (funext fun a => Fin.ext ?_)
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 128 + 1 * k.val = k.val; omega
  · intro k
    show V c main_v27 (((cfg1.win 1).blk t).view.emb (ix2 (0 : Fin 1) k)) = V c main_v27 (ix2 (0 : Fin 1) k)
    refine congrArg (V c main_v27) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · intro k
    show V c main_arg4 (((cfg1.win 2).blk t).view.emb (ix2 k (y 1))) = V c main_arg4 (ix2 k ((((cfg1.win 4).blk t).view.emb y) 1))
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * (y 1).val = win1_4.index t (1 : Fin 2) * 128 + 1 * (y 1).val; omega

/-- An index of the array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

/-- The 20 blocks of 5000 rows fill the array: row n is in block n / 5000. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE OUTPUT ARRAY after the call. -/
theorem final1 (c : Dev nD) : (dat1 V c).arrAt 4 cfg1.N = G1 (V c main_v15) (V c main_v26) (V c main_v27) (V c main_arg4) :=
  (dat1 V c).arrAt_eq_of_cover 4 (G1 (V c main_v15) (V c main_v26) (V c main_v27) (V c main_arg4)) (fun t _ => flushed1 V c t) (cover1)

/-! ## The third call: its output array is `G2` of the arrays it finds -/

/-- The printed index maps over the 20 grid points: a row block and a column block move with the output's block, a whole
    operand stays at block (0, 0), and the output's blocks are a single column of blocks. -/
theorem idx_facts2 : ∀ t : Fin cfg2.N, win2_2.index t (0 : Fin 2) = win2_3.index t (0 : Fin 2)
    ∧ win2_2.index t (1 : Fin 2) = 0
    ∧ win2_0.index t (0 : Fin 2) = win2_3.index t (0 : Fin 2)
    ∧ win2_0.index t (1 : Fin 2) = 0
    ∧ win2_1.index t (0 : Fin 2) = 0
    ∧ win2_1.index t (1 : Fin 2) = 0
    ∧ win2_3.index t (1 : Fin 2) = 0 :=
  (by decide +kernel : ∀ t : Fin grid2.N, _)

/-- Every one of the 20 row blocks is some point's. -/
theorem idx_onto2 : ∀ q0 : Fin 20, ∃ t : Fin cfg2.N, win2_3.index t = ![q0.val, 0] :=
  (by decide +kernel : ∀ q0 : Fin 20, ∃ t : Fin grid2.N, win2_3.index t = ![q0.val, 0])

/-- What point `t` writes back is block `t` of `G2` of the arrays the call finds. -/
theorem flushed2 (c : Dev nD) (t : Fin cfg2.N) :
    (dat2 V c).flushed 3 t = ((cfg2.win 3).blk t).view.read (Elt Ideal) (G2 (V c main_v15) (V c main_v38) (V c main_v39)) := by
  show (cfg2.win 3).cut (grid2.coords t) ((dat2 V c).after 3 t) = _
  rw [after2_3]
  unfold out2_3
  rw [View.canon_unit_zero hz]
  simp only [View.ld_unit_zero (S := S5000x1) hz, View.ld_unit_zero (S := S5000x128) hz, View.ld_unit_zero (S := S1x128) hz]
  obtain ⟨e0, e1, e2, e3, e4, e5, e6⟩ := idx_facts2 t
  funext y
  show k2_pay1 (iblk2 V c 2 t) (iblk2 V c 0 t) (iblk2 V c 1 t) y = G2 (V c main_v15) (V c main_v38) (V c main_v39) (((cfg2.win 3).blk t).view.emb y)
  refine blk2 _ _ _ _ _ _ y _ ?_ ?_ ?_
  · show V c main_v15 (((cfg2.win 2).blk t).view.emb (ix2 (y 0) (0 : Fin 1))) = V c main_v15 (ix2 ((((cfg2.win 3).blk t).view.emb y) 0) (0 : Fin 1))
    refine congrArg (V c main_v15) (funext fun a => Fin.ext ?_)
    match a with
    | ⟨0, _⟩ => show win2_2.index t (0 : Fin 2) * 5000 + 1 * (y 0).val = win2_3.index t (0 : Fin 2) * 5000 + 1 * (y 0).val; omega
    | ⟨1, _⟩ => show win2_2.index t (1 : Fin 2) * 1 + 1 * 0 = 0; omega
  · show V c main_v38 (((cfg2.win 0).blk t).view.emb (ix2 (y 0) (y 1))) = V c main_v38 (((cfg2.win 3).blk t).view.emb y)
    refine congrArg (V c main_v38) (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * (y 1).val = win2_3.index t (1 : Fin 2) * 128 + 1 * (y 1).val; omega
  · show V c main_v39 (((cfg2.win 1).blk t).view.emb (ix2 (0 : Fin 1) (y 1))) = V c main_v39 (ix2 (0 : Fin 1) ((((cfg2.win 3).blk t).view.emb y) 1))
    refine congrArg (V c main_v39) (funext fun a => Fin.ext ?_)
    match a with
    | ⟨0, _⟩ => show win2_1.index t (0 : Fin 2) * 1 + 1 * 0 = 0; omega
    | ⟨1, _⟩ => show win2_1.index t (1 : Fin 2) * 128 + 1 * (y 1).val = win2_3.index t (1 : Fin 2) * 128 + 1 * (y 1).val; omega

/-- An index of the array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v40).slice (win2_3.rect t)).set ↔ _
  rw [View.set_slice_whole, Rect.mem_set_unit]
  exact Iff.rfl

/-- The 20 blocks of 5000 rows fill the array: row n is in block n / 5000. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE OUTPUT ARRAY after the call. -/
theorem final2 (c : Dev nD) : (dat2 V c).arrAt 3 cfg2.N = G2 (V c main_v15) (V c main_v38) (V c main_v39) :=
  (dat2 V c).arrAt_eq_of_cover 3 (G2 (V c main_v15) (V c main_v38) (V c main_v39)) (fun t _ => flushed2 V c t) (cover2)

end Cert.KernelIdeal.GcnRegions

end
-- ==== Proof.KernelHostDefs.lean ====
/-
  THE KERNEL PROGRAM'S HOST OPERATIONS AS FUNCTIONS OF THE ARGUMENTS.

  From the edge list x1 : i32[2, 1600000] the program builds, once, the source and destination indices with one self-loop
  per node appended (sIdx, dIdx : [1700000]), the in-degree deg[n] = number of edges whose destination word is n, the
  per-node weight dinv[n] = 1/sqrt(deg[n]) where deg[n] > 0 and 0 elsewhere, and its column form [100000, 1]. Between
  two pallas_calls it gathers the rows of the previous call's output at the (negative-wrapped) source column and
  scatter-adds them at the raw destination column into zeros: agg H = Σ_{e lands on n} H[s e]. The three calls compute
  G0, G1, G2 of what they find, so the result array is

    G2 dinv (agg (G1 dinv (agg (G0 x W1 dinv)) b1 W2)) b2 .
-/
import proofs.«164105_j3015067041913_2_alg».proof.Proof.KernelRegions
import Idealize.ShloMosaic.PureOps.Ideal

noncomputable section

namespace Cert.KernelIdeal.GcnHost

open Cert.KernelIdeal Cert.KernelIdeal.Gen Cert.KernelIdeal.GcnRegions
open Idealize.ShloMosaic Idealize.ShloMosaic.TcCoe

/-! ## The host operations' values as functions of the edge list, at any float instance -/

section AnyInstance
variable {F : FTy → Type} [FloatOps F]

/-- source index of every edge, self-loops appended -/
def sIdx (x1 : (⟨S2x1600000, .i32⟩ : BufTy).Contents (Elt F)) : (⟨S1700000, .i32⟩ : BufTy).Contents (Elt F) :=
  concatenate S1700000 0 [⟨S1600000, shapeCast _ (extractStridedSlice S1x1600000 ![0, 0] x1 slices_S2x1600000_S1x1600000_0_0) shapeCasts_S1x1600000_S1600000⟩, ⟨S100000, iotaInDim S100000 32 0⟩] concatenates_S1600000_S100000_S1700000_d0

/-- destination index of every edge, self-loops appended -/
def dIdx (x1 : (⟨S2x1600000, .i32⟩ : BufTy).Contents (Elt F)) : (⟨S1700000, .i32⟩ : BufTy).Contents (Elt F) :=
  concatenate S1700000 0 [⟨S1600000, shapeCast _ (extractStridedSlice S1x1600000 ![1, 0] x1 slices_S2x1600000_S1x1600000_1_0) shapeCasts_S1x1600000_S1600000⟩, ⟨S100000, iotaInDim S100000 32 0⟩] concatenates_S1600000_S100000_S1700000_d0

/-- the raw destination column the scatters read -/
def dCol (x1 : (⟨S2x1600000, .i32⟩ : BufTy).Contents (Elt F)) : (⟨S1700000x1, .i32⟩ : BufTy).Contents (Elt F) :=
  broadcastInDim S1700000x1 ![0] bcast_S1700000_S1700000x1_0 (dIdx x1)

/-- the source column the gathers read: a negative index wrapped once by the number of nodes -/
def sCol (x1 : (⟨S2x1600000, .i32⟩ : BufTy).Contents (Elt F)) : (⟨S1700000x1, .i32⟩ : BufTy).Contents (Elt F) :=
  broadcastInDim S1700000x1 ![0] bcast_S1700000_S1700000x1_0
    (select (cmpi .slt (sIdx x1) (broadcastInDim S1700000 ![] bcast_S_S1700000 (constantI S_ 32 0#32)))
      (addi (sIdx x1) (broadcastInDim S1700000 ![] bcast_S_S1700000 (constantI S_ 32 100000#32))) (sIdx x1))

/-- in-degree, self-loop included -/
def deg (x1 : (⟨S2x1600000, .i32⟩ : BufTy).Contents (Elt F)) : (⟨S100000, .f32⟩ : BufTy).Contents (Elt F) :=
  Host.scatterAdd (F := F) scatter_S100000_S1700000x1_S1700000_n_0_0_1
    (broadcastInDim S100000 ![] bcast_S_S100000 (constant (F := F) S_ .f32 0x00000000#32))
    (dCol x1)
    (broadcastInDim S1700000 ![] bcast_S_S1700000 (constant (F := F) S_ .f32 0x3F800000#32))

/-- 1/sqrt(deg) where deg > 0, else 0 -/
def dinv (x1 : (⟨S2x1600000, .i32⟩ : BufTy).Contents (Elt F)) : (⟨S100000, .f32⟩ : BufTy).Contents (Elt F) :=
  select (cmpf (F := F) .ogt (deg x1) (broadcastInDim S100000 ![] bcast_S_S100000 (constant (F := F) S_ .f32 0x00000000#32)))
    (Host.rsqrt (F := F) (φ := .f32) (deg x1))
    (broadcastInDim S100000 ![] bcast_S_S100000 (id (constant (F := F) S_ .f32 0x00000000#32)))

/-- the same as a column [100000, 1] -/
def dinv2d (x1 : (⟨S2x1600000, .i32⟩ : BufTy).Contents (Elt F)) : (⟨S100000x1, .f32⟩ : BufTy).Contents (Elt F) :=
  shapeCast _ (dinv x1) shapeCasts_S100000_S100000x1

/-- gather the rows of H at the source column, scatter-add them at the destination column into zeros -/
def aggOf (H : (⟨S100000x128, .f32⟩ : BufTy).Contents (Elt F)) (x1 : (⟨S2x1600000, .i32⟩ : BufTy).Contents (Elt F)) :
    (⟨S100000x128, .f32⟩ : BufTy).Contents (Elt F) :=
  Host.scatterAdd (F := F) scatter_S100000x128_S1700000x1_S1700000x128_1_0_0_1
    (broadcastInDim S100000x128 ![] bcast_S_S100000x128 (constant (F := F) S_ .f32 0x00000000#32))
    (dCol x1)
    (Host.gather gather_S100000x128_S1700000x1_S1700000x128_1_0_n_n_0_1_1128 H (sCol x1))

/-- a bias [128] as the row [1, 128] -/
def biasRow (b : (⟨S128, .f32⟩ : BufTy).Contents (Elt F)) : (⟨S1x128, .f32⟩ : BufTy).Contents (Elt F) :=
  shapeCast _ b shapeCasts_S128_S1x128

end AnyInstance

/-- THE RESULT of the program as one term of its six arguments. -/
def kernelTerm (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    (⟨S100000x128, .f32⟩ : BufTy).Contents (Elt Ideal) :=
  G2 (dinv2d x1) (aggOf (G1 (dinv2d x1) (aggOf (G0 x0 x2 (dinv2d x1)) x1) (biasRow x3) x4) x1) (biasRow x5)

end Cert.KernelIdeal.GcnHost

end
-- ==== Proof.KernelHost.lean ====
/-
  THE KERNEL PROGRAM'S BUFFERS, BOUNDARY BY BOUNDARY, AND ITS RESULT AS ONE TERM OF THE ARGUMENTS.

  The run's boundaries are: before the first call (after the index, degree and weight preprocessing), after each call,
  and after each stretch of host operations between calls. Every buffer is written once, so a boundary's contents at a
  buffer are read by walking back to the operation that wrote it: a host stretch leaves what it does not write, a
  pallas_call leaves every buffer but its output as it found it and its output at the call's whole-array function.
  Walking the result buffer back through all eight boundaries gives the result as the term `kernelTerm` of the six
  arguments. The host side reads the same at every float instance; only the calls' whole-array functions are stated on
  the extended reals.
-/
import proofs.«164105_j3015067041913_2_alg».proof.Proof.Gen.KernelIdeal.Frame
import proofs.«164105_j3015067041913_2_alg».proof.Proof.KernelRegions
import proofs.«164105_j3015067041913_2_alg».proof.Proof.KernelHostDefs
import Idealize.ShloMosaic.PureOps.Ideal
import Idealize.ShloMosaic.Lib.StableHlo.Run

set_option maxRecDepth 16384

noncomputable section

namespace Cert.KernelIdeal.GcnHost

open Cert.KernelIdeal Cert.KernelIdeal.Gen Cert.KernelIdeal.GcnRegions
open Idealize.ShloMosaic Idealize.ShloMosaic.TcCoe Idealize.ShloMosaic.Tactic Idealize.ShloMosaic.StableHlo
open Idealize.SL.Sem

section AnyInstance

variable {F : FTy → Type} [FloatOps F]
variable (m : (ℓ : Loc nD τ sig) → Buf (Elt F) ℓ) (ρ : Dev nD → PrngReg) (c : Dev nD)

/-! ## Before the first call: the arguments as launched, the index arrays and the weight column -/

theorem W3_main_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results <;> rfl

theorem W3_main_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results <;> rfl

theorem W3_main_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results <;> rfl

theorem W3_main_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results <;> rfl

theorem W3_main_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results <;> rfl

theorem W3_v5 : W3 m ρ c (Proc.devRef .tc main_v5) = sIdx (F := F) (m ((c : Thread nD τ).loc main_arg1)) := by
  show StableHlo.after hostOps0_2 (StableHlo.after hostOps0_1 (StableHlo.after hostOps0 (W0 m ρ c))) (Proc.devRef .tc main_v5) = _
  simp only [hostOps0, hostOps0_1, hostOps0_2]
  after_results <;> rfl

theorem W3_v6 : W3 m ρ c (Proc.devRef .tc main_v6) = dIdx (F := F) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results <;> rfl

set_option maxHeartbeats 1000000 in
theorem W1_v12 : W1 m ρ c (Proc.devRef .tc main_v12)
    = cmpf (F := F) .ogt (deg (F := F) (m ((c : Thread nD τ).loc main_arg1))) (broadcastInDim S100000 ![] bcast_S_S100000 (constant (F := F) S_ .f32 0x00000000#32)) := by
  show StableHlo.after hostOps0 (W0 m ρ c) (Proc.devRef .tc main_v12) = _
  simp only [hostOps0]
  after_results <;> rfl

set_option maxHeartbeats 1000000 in
theorem W1_v13 : W1 m ρ c (Proc.devRef .tc main_v13) = Host.rsqrt (F := F) (φ := .f32) (deg (F := F) (m ((c : Thread nD τ).loc main_arg1))) := by
  show StableHlo.after hostOps0 (W0 m ρ c) (Proc.devRef .tc main_v13) = _
  simp only [hostOps0]
  after_results <;> rfl

theorem W1_cst2 : W1 m ρ c (Proc.devRef .tc main_cst_2) = constant (F := F) S_ .f32 0x00000000#32 := by
  show StableHlo.after hostOps0 (W0 m ρ c) (Proc.devRef .tc main_cst_2) = _
  simp only [hostOps0]
  after_results <;> rfl

theorem W2_v14 : W2 m ρ c (Proc.devRef .tc main_v14) = dinv (F := F) (m ((c : Thread nD τ).loc main_arg1)) := by
  show StableHlo.after hostOps0_1 (W1 m ρ c) (Proc.devRef .tc main_v14) = _
  have h12 := W1_v12 m ρ c
  have h13 := W1_v13 m ρ c
  have h2 := W1_cst2 m ρ c
  generalize W1 m ρ c = Wb at h12 h13 h2 ⊢
  simp only [hostOps0_1]
  after_results
  rw [h12, h13, h2]
  unfold dinv
  rfl

theorem W3_v15 : W3 m ρ c (Proc.devRef .tc main_v15) = dinv2d (F := F) (m ((c : Thread nD τ).loc main_arg1)) := by
  show StableHlo.after hostOps0_2 (W2 m ρ c) (Proc.devRef .tc main_v15) = _
  have h14 := W2_v14 m ρ c
  generalize W2 m ρ c = Wb at h14 ⊢
  simp only [hostOps0_2]
  after_results
  rw [h14]
  rfl

/-! ## After the first call -/

theorem W4_main_v5 : W4 m ρ c (Proc.devRef .tc main_v5) = W3 m ρ c (Proc.devRef .tc main_v5) := W4_of_ne m ρ c main_v5 (by decide)
theorem W4_main_v6 : W4 m ρ c (Proc.devRef .tc main_v6) = W3 m ρ c (Proc.devRef .tc main_v6) := W4_of_ne m ρ c main_v6 (by decide)
theorem W4_main_arg3 : W4 m ρ c (Proc.devRef .tc main_arg3) = W3 m ρ c (Proc.devRef .tc main_arg3) := W4_of_ne m ρ c main_arg3 (by decide)
theorem W4_main_arg4 : W4 m ρ c (Proc.devRef .tc main_arg4) = W3 m ρ c (Proc.devRef .tc main_arg4) := W4_of_ne m ρ c main_arg4 (by decide)
theorem W4_main_arg5 : W4 m ρ c (Proc.devRef .tc main_arg5) = W3 m ρ c (Proc.devRef .tc main_arg5) := W4_of_ne m ρ c main_arg5 (by decide)
theorem W4_main_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))

/-! ## Before the second call -/

theorem W5_main_v5 : W5 m ρ c (Proc.devRef .tc main_v5) = W4 m ρ c (Proc.devRef .tc main_v5) := by
  show StableHlo.after hostOps1 (W4 m ρ c) (Proc.devRef .tc main_v5) = _
  simp only [hostOps1]
  after_results <;> rfl
theorem W5_main_v6 : W5 m ρ c (Proc.devRef .tc main_v6) = W4 m ρ c (Proc.devRef .tc main_v6) := by
  show StableHlo.after hostOps1 (W4 m ρ c) (Proc.devRef .tc main_v6) = _
  simp only [hostOps1]
  after_results <;> rfl
theorem W5_main_arg4 : W5 m ρ c (Proc.devRef .tc main_arg4) = W4 m ρ c (Proc.devRef .tc main_arg4) := by
  show StableHlo.after hostOps1 (W4 m ρ c) (Proc.devRef .tc main_arg4) = _
  simp only [hostOps1]
  after_results <;> rfl
theorem W5_main_arg5 : W5 m ρ c (Proc.devRef .tc main_arg5) = W4 m ρ c (Proc.devRef .tc main_arg5) := by
  show StableHlo.after hostOps1 (W4 m ρ c) (Proc.devRef .tc main_arg5) = _
  simp only [hostOps1]
  after_results <;> rfl
theorem W5_main_v15 : W5 m ρ c (Proc.devRef .tc main_v15) = W4 m ρ c (Proc.devRef .tc main_v15) := by
  show StableHlo.after hostOps1 (W4 m ρ c) (Proc.devRef .tc main_v15) = _
  simp only [hostOps1]
  after_results <;> rfl

theorem W5_main_v27 : W5 m ρ c (Proc.devRef .tc main_v27) = biasRow (F := F) (m ((c : Thread nD τ).loc main_arg3)) := by
  show StableHlo.after hostOps1 (W4 m ρ c) (Proc.devRef .tc main_v27) = _
  simp only [hostOps1]
  after_results
  rw [W4_main_arg3 m ρ c, W3_main_arg3 m ρ c]
  rfl

/-- The first call's output, gathered and scatter-added. -/
theorem W5_main_v26 : W5 m ρ c (Proc.devRef .tc main_v26) = aggOf (F := F) (W4 m ρ c (Proc.devRef .tc main_v16)) (m ((c : Thread nD τ).loc main_arg1)) := by
  show StableHlo.after hostOps1 (W4 m ρ c) (Proc.devRef .tc main_v26) = _
  simp only [hostOps1]
  after_results
  rw [W4_main_v5 m ρ c, W3_v5 m ρ c, W4_main_v6 m ρ c, W3_v6 m ρ c]
  rfl

theorem W5_dinv : W5 m ρ c (Proc.devRef .tc main_v15) = dinv2d (F := F) (m ((c : Thread nD τ).loc main_arg1)) :=
  (W5_main_v15 m ρ c).trans ((W4_main_v15 m ρ c).trans (W3_v15 m ρ c))

/-! ## After the second call -/

theorem W6_main_v5 : W6 m ρ c (Proc.devRef .tc main_v5) = W5 m ρ c (Proc.devRef .tc main_v5) := W6_of_ne m ρ c main_v5 (by decide)
theorem W6_main_v6 : W6 m ρ c (Proc.devRef .tc main_v6) = W5 m ρ c (Proc.devRef .tc main_v6) := W6_of_ne m ρ c main_v6 (by decide)
theorem W6_main_arg5 : W6 m ρ c (Proc.devRef .tc main_arg5) = W5 m ρ c (Proc.devRef .tc main_arg5) := W6_of_ne m ρ c main_arg5 (by decide)
theorem W6_main_v15 : W6 m ρ c (Proc.devRef .tc main_v15) = W5 m ρ c (Proc.devRef .tc main_v15) :=
  (W6_arr m ρ c 3).trans (((dat1 (V5 m ρ) c).arrAt_in 3 rfl _).trans (A_eq1 (V5 m ρ) c 3))

/-! ## Before the third call -/

theorem W7_main_v15 : W7 m ρ c (Proc.devRef .tc main_v15) = W6 m ρ c (Proc.devRef .tc main_v15) := by
  show StableHlo.after hostOps2 (W6 m ρ c) (Proc.devRef .tc main_v15) = _
  simp only [hostOps2]
  after_results <;> rfl

theorem W7_main_v39 : W7 m ρ c (Proc.devRef .tc main_v39) = biasRow (F := F) (m ((c : Thread nD τ).loc main_arg5)) := by
  show StableHlo.after hostOps2 (W6 m ρ c) (Proc.devRef .tc main_v39) = _
  simp only [hostOps2]
  after_results
  rw [W6_main_arg5 m ρ c, W5_main_arg5 m ρ c, W4_main_arg5 m ρ c, W3_main_arg5 m ρ c]
  rfl

/-- The second call's output, gathered and scatter-added. -/
theorem W7_main_v38 : W7 m ρ c (Proc.devRef .tc main_v38) = aggOf (F := F) (W6 m ρ c (Proc.devRef .tc main_v28)) (m ((c : Thread nD τ).loc main_arg1)) := by
  show StableHlo.after hostOps2 (W6 m ρ c) (Proc.devRef .tc main_v38) = _
  simp only [hostOps2]
  after_results
  rw [W6_main_v5 m ρ c, W5_main_v5 m ρ c, W4_main_v5 m ρ c, W3_v5 m ρ c,
    W6_main_v6 m ρ c, W5_main_v6 m ρ c, W4_main_v6 m ρ c, W3_v6 m ρ c]
  rfl

theorem W7_dinv : W7 m ρ c (Proc.devRef .tc main_v15) = dinv2d (F := F) (m ((c : Thread nD τ).loc main_arg1)) :=
  (W7_main_v15 m ρ c).trans ((W6_main_v15 m ρ c).trans (W5_dinv m ρ c))

end AnyInstance

/-! ## On the extended reals: the three calls' outputs, and the result -/

variable (m : (ℓ : Loc nD τ sig) → Buf (Elt Ideal) ℓ) (ρ : Dev nD → PrngReg) (c : Dev nD)

/-- The first call's output: (x·W1)[n, ·] · dinv[n]. -/
theorem W4_main_v16 : W4 m ρ c (Proc.devRef .tc main_v16)
    = G0 (m ((c : Thread nD τ).loc main_arg0)) (m ((c : Thread nD τ).loc main_arg2)) (dinv2d (F := Ideal) (m ((c : Thread nD τ).loc main_arg1))) := by
  refine (W4_arr m ρ c 3).trans ((final0 (V3 m ρ) c).trans ?_)
  rw [show V3 m ρ c main_arg0 = m ((c : Thread nD τ).loc main_arg0) from W3_main_arg0 m ρ c,
    show V3 m ρ c main_arg2 = m ((c : Thread nD τ).loc main_arg2) from W3_main_arg2 m ρ c,
    show V3 m ρ c main_v15 = dinv2d (F := Ideal) (m ((c : Thread nD τ).loc main_arg1)) from W3_v15 m ρ c]

/-- The second call's output. -/
theorem W6_main_v28 : W6 m ρ c (Proc.devRef .tc main_v28)
    = G1 (dinv2d (F := Ideal) (m ((c : Thread nD τ).loc main_arg1)))
        (aggOf (F := Ideal) (G0 (m ((c : Thread nD τ).loc main_arg0)) (m ((c : Thread nD τ).loc main_arg2)) (dinv2d (F := Ideal) (m ((c : Thread nD τ).loc main_arg1)))) (m ((c : Thread nD τ).loc main_arg1)))
        (biasRow (F := Ideal) (m ((c : Thread nD τ).loc main_arg3))) (m ((c : Thread nD τ).loc main_arg4)) := by
  refine (W6_arr m ρ c 4).trans ((final1 (V5 m ρ) c).trans ?_)
  rw [show V5 m ρ c main_v15 = dinv2d (F := Ideal) (m ((c : Thread nD τ).loc main_arg1)) from W5_dinv m ρ c,
    show V5 m ρ c main_v26 = _ from (W5_main_v26 m ρ c).trans (congrArg (fun H => aggOf (F := Ideal) H (m ((c : Thread nD τ).loc main_arg1))) (W4_main_v16 m ρ c)),
    show V5 m ρ c main_v27 = _ from W5_main_v27 m ρ c,
    show V5 m ρ c main_arg4 = m ((c : Thread nD τ).loc main_arg4) from
      (W5_main_arg4 m ρ c).trans ((W4_main_arg4 m ρ c).trans (W3_main_arg4 m ρ c))]

/-- THE RESULT ARRAY at the run's last boundary is `kernelTerm` of the launch contents of the six arguments. -/
theorem kernel_value : W8 m ρ c (Proc.devRef .tc main_v40)
    = kernelTerm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 3).trans ((final2 (V7 m ρ) c).trans ?_)
  rw [show V7 m ρ c main_v15 = dinv2d (F := Ideal) (m ((c : Thread nD τ).loc main_arg1)) from W7_dinv m ρ c,
    show V7 m ρ c main_v38 = _ from (W7_main_v38 m ρ c).trans (congrArg (fun H => aggOf (F := Ideal) H (m ((c : Thread nD τ).loc main_arg1))) (W6_main_v28 m ρ c)),
    show V7 m ρ c main_v39 = _ from W7_main_v39 m ρ c]
  rfl

end Cert.KernelIdeal.GcnHost

end
-- ==== Proof.LibRealSums.lean ====
import Mathlib.Data.EReal.Operations
import Mathlib.Algebra.BigOperators.Ring.Finset
import Mathlib.Tactic.Ring

/-!
# Finite sums of extended reals that are all real numbers

Multiplication of extended reals does not distribute over addition when
infinities are present, so the usual algebra of finite sums (pulling a constant
factor out of a sum, reassociating products under a sum) is not available in
general.  When every term is a genuine real number, each identity can be moved
to the field of real numbers through the coercion, proved there by ring
algebra, and moved back.  This file collects the small amount of that
machinery needed to rescale contractions and aggregations by a real constant.
-/

namespace Cert.RealSums

open scoped BigOperators

/-- An extended real that is a real number. -/
def IsReal (x : EReal) : Prop := ∃ r : ℝ, x = (r : EReal)

/-- Zero is a real number. -/
theorem IsReal.zero : IsReal 0 := ⟨0, EReal.coe_zero.symm⟩

/-- The coercion of a real number is a real number. -/
theorem IsReal.coe (r : ℝ) : IsReal (r : EReal) := ⟨r, rfl⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem IsReal.max {x y : EReal} (hx : IsReal x) (hy : IsReal y) : IsReal (max x y) := by
  rcases max_choice x y with h | h
  · rw [h]; exact hx
  · rw [h]; exact hy

/-- The coercion from the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- A family of extended reals that are real on a finite set is, on that set,
the coercion of a real-valued family (take the real part of each term). -/
theorem exists_real_fun {ι : Type*} (s : Finset ι) (f : ι → EReal)
    (h : ∀ i ∈ s, IsReal (f i)) : ∃ g : ι → ℝ, ∀ i ∈ s, f i = (g i : EReal) := by
  refine ⟨fun i => (f i).toReal, fun i hi => ?_⟩
  obtain ⟨r, hr⟩ := h i hi
  show f i = (((f i).toReal : ℝ) : EReal)
  rw [hr, EReal.toReal_coe]

/-- A finite sum of real numbers is a real number. -/
theorem IsReal.sum {ι : Type*} (s : Finset ι) (f : ι → EReal)
    (h : ∀ i ∈ s, IsReal (f i)) : IsReal (∑ i ∈ s, f i) := by
  obtain ⟨g, hg⟩ := exists_real_fun s f h
  refine ⟨∑ i ∈ s, g i, ?_⟩
  rw [coe_sum]
  exact Finset.sum_congr rfl hg

/-- Scaling every left factor of a contraction by one real D scales the
contraction: Σ_k (a k · D) · w k = (Σ_k a k · w k) · D. -/
theorem sum_mul_scale {κ : Type*} (s : Finset κ) (a w : κ → EReal) (D : EReal)
    (ha : ∀ k ∈ s, IsReal (a k)) (hw : ∀ k ∈ s, IsReal (w k)) (hD : IsReal D) :
    ∑ k ∈ s, (a k * D) * w k = (∑ k ∈ s, a k * w k) * D := by
  obtain ⟨a', ha'⟩ := exists_real_fun s a ha
  obtain ⟨w', hw'⟩ := exists_real_fun s w hw
  obtain ⟨d, rfl⟩ := hD
  -- both sides are coercions of real sums
  have h1 : ∑ k ∈ s, (a k * (d : EReal)) * w k
      = ((∑ k ∈ s, (a' k * d) * w' k : ℝ) : EReal) := by
    rw [coe_sum]
    refine Finset.sum_congr rfl fun k hk => ?_
    rw [ha' k hk, hw' k hk, EReal.coe_mul, EReal.coe_mul]
  have h2 : ∑ k ∈ s, a k * w k = ((∑ k ∈ s, a' k * w' k : ℝ) : EReal) := by
    rw [coe_sum]
    refine Finset.sum_congr rfl fun k hk => ?_
    rw [ha' k hk, hw' k hk, EReal.coe_mul]
  -- in the reals: pull the constant out of the sum, term by term
  have h3 : (∑ k ∈ s, (a' k * d) * w' k : ℝ) = (∑ k ∈ s, a' k * w' k) * d := by
    rw [Finset.sum_mul]
    refine Finset.sum_congr rfl fun k _ => ?_
    ring
  rw [h1, h2, h3, EReal.coe_mul]

/-- The aggregation law: if every summand P u is Q u scaled by ds u, and dd is
the constant D on the set, then scaling the sum of the P's by D gives the sum of
the Q's scaled by ds·dd.  (The leading 0 + is how the sums arrive: an
accumulation into zero.) -/
theorem agg_scale {U : Type*} (A : Finset U) (P Q ds dd : U → EReal) (D : EReal)
    (hQ : ∀ u ∈ A, IsReal (Q u)) (hds : ∀ u ∈ A, IsReal (ds u)) (hD : IsReal D)
    (hP : ∀ u ∈ A, P u = Q u * ds u) (hdd : ∀ u ∈ A, dd u = D) :
    (0 + ∑ u ∈ A, P u) * D = 0 + ∑ u ∈ A, Q u * (ds u * dd u) := by
  obtain ⟨q, hq⟩ := exists_real_fun A Q hQ
  obtain ⟨e, he⟩ := exists_real_fun A ds hds
  obtain ⟨d, rfl⟩ := hD
  have h1 : ∑ u ∈ A, P u = ((∑ u ∈ A, q u * e u : ℝ) : EReal) := by
    rw [coe_sum]
    refine Finset.sum_congr rfl fun u hu => ?_
    rw [hP u hu, hq u hu, he u hu, EReal.coe_mul]
  have h2 : ∑ u ∈ A, Q u * (ds u * dd u)
      = ((∑ u ∈ A, q u * (e u * d) : ℝ) : EReal) := by
    rw [coe_sum]
    refine Finset.sum_congr rfl fun u hu => ?_
    rw [hq u hu, he u hu, hdd u hu, EReal.coe_mul, EReal.coe_mul]
  -- in the reals: (Σ q·e)·d = Σ q·(e·d)
  have h3 : (∑ u ∈ A, q u * e u : ℝ) * d = ∑ u ∈ A, q u * (e u * d) := by
    rw [Finset.sum_mul]
    refine Finset.sum_congr rfl fun u _ => ?_
    ring
  rw [zero_add, zero_add, h1, h2, ← EReal.coe_mul, h3]

/-- and the same sum is a real number -/
theorem agg_isReal {U : Type*} (A : Finset U) (Q ds dd : U → EReal) (D : EReal)
    (hQ : ∀ u ∈ A, IsReal (Q u)) (hds : ∀ u ∈ A, IsReal (ds u)) (hD : IsReal D)
    (hdd : ∀ u ∈ A, dd u = D) :
    IsReal (0 + ∑ u ∈ A, Q u * (ds u * dd u)) := by
  rw [zero_add]
  refine IsReal.sum A _ fun u hu => ?_
  rw [hdd u hu]
  exact (hQ u hu).mul ((hds u hu).mul hD)

end Cert.RealSums
-- ==== Proof.PreReal.lean ====
import proofs.«164105_j3015067041913_2_alg».proof.Pre_finite_inputs
import proofs.«164105_j3015067041913_2_alg».proof.Proof.Gen.Pre_finite_inputs
import proofs.«164105_j3015067041913_2_alg».proof.Proof.LibRealSums
import Idealize.ShloMosaic.Lib.ReduceAll
import Idealize.ShloMosaic.Lib.ValueIdx
import Idealize.ShloMosaic.PureOps.Ideal
import Idealize.ShloMosaic.PureOps.Ideal.Laws

/-!
# The finiteness precondition, read back

The precondition is the conjunction, over the five float arguments, of
"every entry x has |x| < +∞".  Over the extended reals |x| is max x (-x), and
an extended real whose absolute value is below +∞ is neither of the two
infinities: it is a real number.  This file decodes the printed predicate into
that statement for each argument.
-/

noncomputable section

namespace Cert.Pre_finite_inputs.PreReal

open Idealize.ShloMosaic Cert.Pre_finite_inputs Cert.Pre_finite_inputs.Gen Cert.RealSums

/-- The pattern with all exponent bits set and a zero significand denotes +∞. -/
theorem ofBits_inf : Ideal.ofBits .f32 0x7F800000#32 = (⊤ : EReal) := by
  simp [Ideal.ofBits, Ideal.ieee]

/-- An extended real whose absolute value max x (-x) is below +∞ is a real
number: at +∞ the maximum is +∞, at -∞ its negation is +∞. -/
theorem isReal_of_abs_lt_top (x : EReal) (h : max x (-x) < ⊤) : IsReal x := by
  induction x using EReal.rec with
  | bot => exact absurd h (by simp)
  | top => exact absurd h (by simp)
  | coe r => exact ⟨r, rfl⟩

/-- The result of the whole-array conjunction has a single index. -/
instance subsingleton_S_ : Subsingleton S_.Idx := ⟨fun a b => funext fun d => d.elim0⟩

/-- One entry of the comparison |x| < +∞ being true says the entry is real. -/
theorem isReal_of_cmp {s : Shape} (dims : Fin S_.rank → Fin s.rank) (hb : S_.BroadcastsInDim s dims)
    (a : FVec Ideal s .f32) (i : s.Idx)
    (h : cmpf .olt (Host.absf a) (broadcastInDim s dims hb (constant (F := Ideal) S_ .f32 0x7F800000#32)) i = 1#1) :
    IsReal (a i) := by
  have h' : BitVec.ofBool (decide (max (a i) (-(a i)) < Ideal.ofBits .f32 0x7F800000#32)) = 1#1 := h
  rw [ofBits_inf] at h'
  by_cases hlt : max (a i) (-(a i)) < (⊤ : EReal)
  · exact isReal_of_abs_lt_top _ hlt
  · rw [decide_eq_false hlt] at h'
    exact absurd h' (by decide)

theorem real_of_pre
    (a0 : (⟨S100000x128, .f32⟩ : BufTy).Contents (Elt Ideal))
    (a1 : (⟨S2x1600000, .i32⟩ : BufTy).Contents (Elt Ideal))
    (a2 : (⟨S128x128, .f32⟩ : BufTy).Contents (Elt Ideal))
    (a3 : (⟨S128, .f32⟩ : BufTy).Contents (Elt Ideal))
    (a4 : (⟨S128x128, .f32⟩ : BufTy).Contents (Elt Ideal))
    (a5 : (⟨S128, .f32⟩ : BufTy).Contents (Elt Ideal))
    (h : Cert.Pre_finite_inputs.fn (F := Ideal) a0 a1 a2 a3 a4 a5 = (fun _ => 1#1)) :
    (∀ i, IsReal (a0 i)) ∧ (∀ i, IsReal (a2 i)) ∧ (∀ i, IsReal (a3 i)) ∧ (∀ i, IsReal (a4 i))
      ∧ (∀ i, IsReal (a5 i)) := by
  have h0 := congrFun h ValueIdx.ix0
  dsimp only [fn, fn_part1] at h0
  -- the conjunction ((((p0 ∧ p2) ∧ p3) ∧ p4) ∧ p5), split from the outside in
  obtain ⟨h0123, h5⟩ := IntOp.andi_eq_one.1 h0
  obtain ⟨h012, h4⟩ := IntOp.andi_eq_one.1 h0123
  obtain ⟨h01, h3⟩ := IntOp.andi_eq_one.1 h012
  obtain ⟨h00, h2⟩ := IntOp.andi_eq_one.1 h01
  refine ⟨fun i => ?_, fun i => ?_, fun i => ?_, fun i => ?_, fun i => ?_⟩
  · exact isReal_of_cmp _ _ a0 i (Host.reduce_andi_all _ _ _ _ _ h00 i)
  · exact isReal_of_cmp _ _ a2 i (Host.reduce_andi_all _ _ _ _ _ h2 i)
  · exact isReal_of_cmp _ _ a3 i (Host.reduce_andi_all _ _ _ _ _ h3 i)
  · exact isReal_of_cmp _ _ a4 i (Host.reduce_andi_all _ _ _ _ _ h4 i)
  · exact isReal_of_cmp _ _ a5 i (Host.reduce_andi_all _ _ _ _ _ h5 i)

end Cert.Pre_finite_inputs.PreReal

end
-- ==== Proof.GcnSpec.lean ====
/-
  TWO GRAPH-CONVOLUTION LAYERS, AS MATHEMATICS.

  Nodes n < 100000 carry feature rows of width 128; the edge list, with one self-loop per node appended, has 1700000
  entries e, each with a source row rs e and a destination word read out of the column dcol. One layer takes node
  features X, a weight matrix W, a bias b and a per-node weight dinv (the inverse square root of the in-degree, or zero):

    reference form:  out[n, c] = max (Σ_{e lands on n} (X·W)[rs e, c] · (dinv[rs e] · dinv[rd e]) + b[c]) 0
    kernel form:     out[n, c] = max ((Σ_{e lands on n} ((X·W)[rs e, c] · dinv[rs e])) · dinv[n] + b[c]) 0

  where "e lands on n" is the scatter's own test (the destination word of e, read signed, is n and is a row of the array)
  and rd e is the destination word clamped into the rows. On an edge that lands on n the clamp does nothing, rd e = n, so
  the factor dinv[rd e] is the constant dinv[n] on the whole sum; it may be taken out of the sum because every term
  is a real number (distributivity fails on the extended reals only at infinities). That is the whole law; it is
  applied twice, the second layer's features being the first layer's (real) output.
-/
import Idealize.ShloMosaic.Lib.ValueIdx
import Idealize.ShloMosaic.PureOps.Ideal
import proofs.«164105_j3015067041913_2_alg».proof.Proof.LibRealSums

noncomputable section

namespace Cert.Gcn

open Idealize.ShloMosaic Idealize.ShloMosaic.ValueIdx Cert.RealSums
open scoped BigOperators

/-- node features [100000, 128] -/
abbrev SN : Shape := ⟨2, ![100000, 128]⟩
/-- one message row per edge [1700000, 128] -/
abbrev SE : Shape := ⟨2, ![1700000, 128]⟩
/-- an index column [1700000, 1] -/
abbrev SC : Shape := ⟨2, ![1700000, 1]⟩
/-- one number per node [100000] -/
abbrev SV : Shape := ⟨1, ![100000]⟩
/-- a weight matrix [128, 128] -/
abbrev SW : Shape := ⟨2, ![128, 128]⟩
/-- a bias [128] -/
abbrev SB : Shape := ⟨1, ![128]⟩

/-- X·W at (n, c): the row of X against the column of W. -/
def lin (X : SN.Idx → EReal) (W : SW.Idx → EReal) : SN.Idx → EReal :=
  fun i => ∑ k : Fin 128, X (ix2 (i 0) k) * W (ix2 k (i 1))

/-- X·W with every row n scaled by dinv[n]: what the kernel's matrix-product stage writes. -/
def scaled (X : SN.Idx → EReal) (W : SW.Idx → EReal) (dinv : SV.Idx → EReal) : SN.Idx → EReal :=
  fun i => lin X W i * dinv (ix1 (i 0))

/-- Row rs e of H for every edge e: the gathered messages. -/
def rowsOf (H : SN.Idx → EReal) (rs : Fin 1700000 → Fin 100000) : SE.Idx → EReal :=
  fun j => H (ix2 (rs (j 0)) (j 1))

/-- The reference's messages: row rs e of H times the edge's weight dinv[rs' e] · dinv[rd e]. -/
def weighted (H : SN.Idx → EReal) (dinv : SV.Idx → EReal) (rs rs' rd : Fin 1700000 → Fin 100000) : SE.Idx → EReal :=
  fun j => H (ix2 (rs (j 0)) (j 1)) * (dinv (ix1 (rs' (j 0))) * dinv (ix1 (rd (j 0))))

/-- The kernel's epilogue: scale row n by dinv[n], add the bias, clip at zero. -/
def actK (A : SN.Idx → EReal) (dinv : SV.Idx → EReal) (b : SB.Idx → EReal) : SN.Idx → EReal :=
  fun i => max (A i * dinv (ix1 (i 0)) + b (ix1 (i 1))) 0

/-- The reference's epilogue: add the bias, clip at zero. -/
def actR (A : SN.Idx → EReal) (b : SB.Idx → EReal) : SN.Idx → EReal :=
  fun i => max (A i + b (ix1 (i 1))) 0

variable (sd : ScatterDims SN SC SE)

/-- One layer as the kernel computes it. -/
def layerK (dcol : IVec SC 32) (rs : Fin 1700000 → Fin 100000) (dinv : SV.Idx → EReal)
    (X : SN.Idx → EReal) (W : SW.Idx → EReal) (b : SB.Idx → EReal) : SN.Idx → EReal :=
  actK (Ideal.hostScatterAdd sd (fun _ => 0) dcol (rowsOf (scaled X W dinv) rs)) dinv b

/-- One layer as the reference computes it. -/
def layerR (dcol : IVec SC 32) (rs rs' rd : Fin 1700000 → Fin 100000) (dinv : SV.Idx → EReal)
    (X : SN.Idx → EReal) (W : SW.Idx → EReal) (b : SB.Idx → EReal) : SN.Idx → EReal :=
  actR (Ideal.hostScatterAdd sd (fun _ => 0) dcol (weighted (lin X W) dinv rs rs' rd)) b

/-- X·W of real matrices is real. -/
theorem lin_isReal (X : SN.Idx → EReal) (W : SW.Idx → EReal) (hX : ∀ i, IsReal (X i)) (hW : ∀ i, IsReal (W i))
    (i : SN.Idx) : IsReal (lin X W i) :=
  IsReal.sum _ _ fun k _ => (hX _).mul (hW _)

section Law

variable (dcol : IVec SC 32) (rs rd : Fin 1700000 → Fin 100000) (dinv : SV.Idx → EReal)
  (X : SN.Idx → EReal) (W : SW.Idx → EReal) (b : SB.Idx → EReal)
  (hland : ∀ (j : SE.Idx) (i : SN.Idx), sd.resultIdx? j dcol = some i → rd (j 0) = i 0)
  (hdinv : ∀ n, IsReal (dinv n)) (hX : ∀ i, IsReal (X i)) (hW : ∀ i, IsReal (W i))

include hland hdinv hX hW in
/-- THE LAW OF ONE LAYER: the kernel's form is the reference's form. -/
theorem layerK_eq_layerR : layerK sd dcol rs dinv X W b = layerR sd dcol rs rs rd dinv X W b := by
  funext i
  have key := agg_scale (Finset.univ.filter fun j : SE.Idx => sd.resultIdx? j dcol = some i)
    (rowsOf (scaled X W dinv) rs) (rowsOf (lin X W) rs) (fun j => dinv (ix1 (rs (j 0)))) (fun j => dinv (ix1 (rd (j 0))))
    (dinv (ix1 (i 0)))
    (fun j _ => lin_isReal X W hX hW _) (fun j _ => hdinv _) (hdinv _)
    (fun j _ => rfl)
    (fun j hj => by rw [hland j i (Finset.mem_filter.mp hj).2])
  exact congrArg (fun z => max (z + b (ix1 (i 1))) 0) key

include hland hdinv hX hW in
/-- and the layer's output is real when the bias is. -/
theorem layerR_isReal (hb : ∀ c, IsReal (b c)) (i : SN.Idx) : IsReal (layerR sd dcol rs rs rd dinv X W b i) := by
  have key := agg_isReal (Finset.univ.filter fun j : SE.Idx => sd.resultIdx? j dcol = some i)
    (rowsOf (lin X W) rs) (fun j => dinv (ix1 (rs (j 0)))) (fun j => dinv (ix1 (rd (j 0))))
    (dinv (ix1 (i 0)))
    (fun j _ => lin_isReal X W hX hW _) (fun j _ => hdinv _) (hdinv _)
    (fun j hj => by rw [hland j i (Finset.mem_filter.mp hj).2])
  exact IsReal.max (IsReal.add key (hb _)) IsReal.zero

end Law

/-- THE TWO LAYERS: the kernel's composition is the reference's. -/
theorem twoLayers (dcol : IVec SC 32) (rs rd : Fin 1700000 → Fin 100000) (dinv : SV.Idx → EReal)
    (X : SN.Idx → EReal) (W1 W2 : SW.Idx → EReal) (b1 b2 : SB.Idx → EReal)
    (hland : ∀ (j : SE.Idx) (i : SN.Idx), sd.resultIdx? j dcol = some i → rd (j 0) = i 0)
    (hdinv : ∀ n, IsReal (dinv n)) (hX : ∀ i, IsReal (X i)) (hW1 : ∀ i, IsReal (W1 i)) (hW2 : ∀ i, IsReal (W2 i))
    (hb1 : ∀ c, IsReal (b1 c)) :
    layerK sd dcol rs dinv (layerK sd dcol rs dinv X W1 b1) W2 b2
      = layerR sd dcol rs rs rd dinv (layerR sd dcol rs rs rd dinv X W1 b1) W2 b2 := by
  rw [layerK_eq_layerR sd dcol rs rd dinv X W1 b1 hland hdinv hX hW1]
  exact layerK_eq_layerR sd dcol rs rd dinv _ W2 b2 hland hdinv
    (layerR_isReal sd dcol rs rd dinv X W1 b1 hland hdinv hX hW1 hb1) hW2

end Cert.Gcn

end
-- ==== Proof.LibGatherRows.lean ====
/-
  ROW GATHER AND ROW SCATTER READ AT AN INDEX.

  x[idx] for the rows of a matrix x : [N, D] at an integer column idx : [E, 1] is the gather with offset axis 1,
  collapsed axis 0, start index map [0], index vector axis 1 and slice sizes [1, D]: result element (e, k) is x at row
  idx[e, 0], read as a signed integer and clamped into [0, N - 1], and column k. The same for a flat operand x : [N].
  The matching scatter (update window axis 1, inserted window axis 0, map [0], index vector axis 1) sends update
  element (e, k) to row idx[e, 0], read signed and NOT clamped, column k, and drops it when that row is outside the operand.
-/
import Idealize.ShloMosaic.Lib.ValueIdx
import Idealize.ShloMosaic.PureOps.Ideal

noncomputable section

namespace Idealize.ShloMosaic.GatherRows

open Idealize.ShloMosaic Idealize.ShloMosaic.ValueIdx

/-- The row a start word selects: read signed, clamped into [0, N-1]. -/
def clampRow (N : Nat) (hN : 0 < N) {w : Nat} (v : BitVec w) : Fin N := ⟨min v.toInt.toNat (N - 1), by omega⟩

/-- A start word whose signed reading is a row number already in range selects that row: the clamp does nothing. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  rw [h, Int.toNat_natCast]
  have := n.isLt
  omega

/-- x[idx] for rows of a matrix: operand [N, D], start indices [E, 1], result [E, D]. -/
abbrev rowsDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (e, k): the operand at row idx[e, 0], read signed and clamped into [0, N - 1], column k. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N E D wf) x idx (ix2 e k) = x (ix2 (clampRow N hN (idx (ix2 e ⟨0, Nat.one_pos⟩))) k) := by
  unfold Host.gather
  congr 1
  funext a
  refine Fin.ext ?_
  match a with
  | ⟨0, _⟩ =>
    show (rowsDims N E D wf).start (ix2 e k) idx 0 + (rowsDims N E D wf).batchCoord (ix2 e k) 0
      + (rowsDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e k) ⟨List.idxOf (0 : Fin 2) (rowsDims N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowsDims N E D wf).start (ix2 e k) idx 1 + (rowsDims N E D wf).batchCoord (ix2 e k) 1
      + (rowsDims N E D wf).offCoord (ix2 e k) 1 = _
    have hst : (rowsDims N E D wf).start (ix2 e k) idx 1 = 0 := by
      unfold GatherDims.start
      rw [dif_neg (fun h => absurd (List.mem_singleton.mp h) (show (1 : Fin 2) ≠ 0 by decide))]
    have hk : (1 : Fin 2) ∈ (rowsDims N E D wf).sKept :=
      (GatherDims.mem_sKept _ _).mpr ⟨fun h => absurd (List.mem_singleton.mp h) (show (1 : Fin 2) ≠ 0 by decide), List.not_mem_nil⟩
    have hoff : (rowsDims N E D wf).offCoord (ix2 e k) 1 = k.val := by
      unfold GatherDims.offCoord
      rw [dif_pos hk]
      rfl
    rw [hst, GatherDims.batchCoord_eq_zero _ _ _ List.not_mem_nil, hoff]
    simp only [Nat.add_zero, Nat.zero_add]

/-- x[idx] of a flat array: operand [N], start indices [E, 1], result [E] (offset_dims [], collapsed_slice_dims [0],
    start_index_map [0], index_vector_dim 1, slice_sizes [1]). -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT e: the operand at idx[e, 0], read signed and clamped into [0, N - 1]. -/
theorem gather_flat_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (clampRow N hN (idx (ix2 e ⟨0, Nat.one_pos⟩)))) := by
  unfold Host.gather
  congr 1
  funext a
  obtain rfl : a = 0 := Subsingleton.elim _ _
  refine Fin.ext ?_
  show (flatDims N E wf).start (ix1 e) idx 0 + (flatDims N E wf).batchCoord (ix1 e) 0
    + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- Row scatter: operand [N, D], scatter indices [E, 1], updates [E, D]; update_window_dims [1], inserted_window_dims [0],
    scatter_dims_to_operand_dims [0], index_vector_dim 1. -/
abbrev rowsScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index update (e, k) reads its one start component at: [e, 0]. -/
theorem scatter_rows_siIdx {N E D : Nat} (wf : ScatterDims.WF ⟨2, ![N, D]⟩ ⟨2, ![E, 1]⟩ ⟨2, ![E, D]⟩ [1] [0] [0] 1)
    (e : Fin E) (k : Fin D) (c : Fin (rowsScatterDims N E D wf).scatterDimsToOperandDims.length) :
    (rowsScatterDims N E D wf).siIdx (ix2 e k) c = ix2 e ⟨0, Nat.one_pos⟩ := by
  funext b; refine Fin.ext ?_
  match b with
  | ⟨0, _⟩ => rfl
  | ⟨1, _⟩ =>
    show c.val = 0
    have := c.isLt
    simp only [List.length_singleton] at this
    omega

/-- Where an update lands: update (e, k) lands on (n, j) only if the start word of row e, read signed, is n, and k = j. -/
theorem scatter_rows_lands {N E D w : Nat} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (j : Fin D)
    (h : (rowsScatterDims N E D wf).resultIdx? (ix2 e k) idx = some (ix2 n j)) :
    (idx (ix2 e ⟨0, Nat.one_pos⟩)).toInt = (n.val : Int) ∧ k = j := by
  have hs0 : (rowsScatterDims N E D wf).start (ix2 e k) idx 0 = (idx (ix2 e ⟨0, Nat.one_pos⟩)).toInt := by
    unfold ScatterDims.start
    rw [dif_pos (show (0 : Fin 2) ∈ (rowsScatterDims N E D wf).scatterDimsToOperandDims from List.mem_singleton.mpr rfl),
      scatter_rows_siIdx]
  have hw0 : (rowsScatterDims N E D wf).window (ix2 e k) 0 = 0 := by
    unfold ScatterDims.window
    rw [dif_neg (fun h => by
      have := (List.mem_filter.mp h).2
      simp at this)]
  have hs1 : (rowsScatterDims N E D wf).start (ix2 e k) idx 1 = 0 := by
    unfold ScatterDims.start
    rw [dif_neg (fun h => absurd (List.mem_singleton.mp h) (show (1 : Fin 2) ≠ 0 by decide))]
  have hk : (1 : Fin 2) ∈ (rowsScatterDims N E D wf).sKept :=
    List.mem_filter.mpr ⟨List.mem_finRange _,
      decide_eq_true (fun h => absurd (List.mem_singleton.mp h) (show (1 : Fin 2) ≠ 0 by decide))⟩
  have hw1 : (rowsScatterDims N E D wf).window (ix2 e k) 1 = k.val := by
    unfold ScatterDims.window
    rw [dif_pos hk]
    rfl
  unfold ScatterDims.resultIdx? at h
  split at h
  · rename_i hall
    have h' := Option.some.inj h
    have h0 := congrArg Fin.val (congrFun h' 0)
    have h1 := congrArg Fin.val (congrFun h' 1)
    have hb0 := hall 0
    simp only [hs0, hw0] at h0 hb0
    simp only [hs1, hw1] at h1
    refine ⟨?_, Fin.ext ?_⟩
    · have h0' : ((idx (ix2 e ⟨0, Nat.one_pos⟩)).toInt + ((0 : Nat) : Int)).toNat = n.val := h0
      have := hb0.1
      omega
    · have h1' : (0 + (k.val : Int)).toNat = j.val := h1
      omega
  · exact absurd h (by simp)

end Idealize.ShloMosaic.GatherRows

end
-- ==== Proof.KernelSpec.lean ====
/-
  THE KERNEL PROGRAM'S RESULT TERM IS THE SPECIFICATION'S KERNEL FORM.

  The first call's function is "x·W, each row scaled by the node's weight"; the second is the same applied to
  the first layer's epilogue (scale by the weight, add the bias, clip at zero); the third is the second layer's epilogue.
  The host's gather at the source column reads row rs e of its operand, rs e being the column's word read signed and
  clamped into the rows; the scatter-add into the zero array is the exact sum of the updates landing at each entry. The
  weight column [100000, 1] read at (n, 0) is the weight vector at n, and the bias row [1, 128] read at (0, k) is
  the bias at k.
-/
import proofs.«164105_j3015067041913_2_alg».proof.Proof.KernelHostDefs
import proofs.«164105_j3015067041913_2_alg».proof.Proof.GcnSpec
import proofs.«164105_j3015067041913_2_alg».proof.Proof.LibGatherRows
import proofs.«164105_j3015067041913_2_alg».proof.Proof.LibLayout
import Idealize.ShloMosaic.Lib.ValueLayout
import Idealize.ShloMosaic.Lib.Pipeline.Value
import Idealize.ShloMosaic.PureOps.Ideal.Laws

noncomputable section

namespace Cert.KernelIdeal.GcnBridge

open Cert.KernelIdeal Cert.KernelIdeal.Gen Cert.KernelIdeal.GcnRegions Cert.KernelIdeal.GcnHost
open Idealize.ShloMosaic Idealize.ShloMosaic.ValueIdx Idealize.ShloMosaic.GatherRows Cert.Gcn

/-- The source row of edge e: the source column's word read signed and clamped into the rows. -/
def rsK (x1 : (⟨S2x1600000, .i32⟩ : BufTy).Contents (Elt Ideal)) : Fin 1700000 → Fin 100000 :=
  fun e => clampRow 100000 (by decide) (sCol x1 (ix2 e ⟨0, Nat.one_pos⟩))

/-- The zero array the scatters add into. -/
theorem zeros_eq : (broadcastInDim S100000x128 ![] bcast_S_S100000x128 (constant (F := Ideal) S_ .f32 0x00000000#32))
    = fun _ => (0 : EReal) := by
  funext i
  exact (broadcastInDim_apply _ bcast_S_S100000x128 (constant (F := Ideal) S_ .f32 0x00000000#32) i (fun a => a.elim0)
    (fun a => a.elim0)).trans Ideal.ofBits_zero_f32

/-- The gather reads row rs e of its operand. -/
theorem gather_eq (H : (⟨S100000x128, .f32⟩ : BufTy).Contents (Elt Ideal)) (x1 : (⟨S2x1600000, .i32⟩ : BufTy).Contents (Elt Ideal)) :
    Host.gather gather_S100000x128_S1700000x1_S1700000x128_1_0_n_n_0_1_1128 H (sCol x1) = rowsOf H (rsK x1) := by
  funext j
  exact (congrArg (Host.gather gather_S100000x128_S1700000x1_S1700000x128_1_0_n_n_0_1_1128 H (sCol x1)) (eq_ix2 j)).trans
    (gather_rows_apply (N := 100000) (E := 1700000) (D := 128) (by decide)
      gather_S100000x128_S1700000x1_S1700000x128_1_0_n_n_0_1_1128.wf H (sCol x1) (j 0) (j 1))

/-- Gather then scatter-add into zeros is the sum, at each entry, of the rows landing there. -/
theorem aggOf_eq (H : (⟨S100000x128, .f32⟩ : BufTy).Contents (Elt Ideal)) (x1 : (⟨S2x1600000, .i32⟩ : BufTy).Contents (Elt Ideal)) :
    aggOf H x1 = Ideal.hostScatterAdd scatter_S100000x128_S1700000x1_S1700000x128_1_0_0_1 (fun _ => 0) (dCol x1) (rowsOf H (rsK x1)) := by
  unfold aggOf
  rw [gather_eq, zeros_eq]
  rfl

/-- The weight column at (n, 0) is the weight at n. -/
theorem dinv2d_apply (x1 : (⟨S2x1600000, .i32⟩ : BufTy).Contents (Elt Ideal)) (n : Fin 100000) : dinv2d x1 (ix2 n (0 : Fin 1)) = dinv x1 (ix1 n) :=
  Cert.Attn.Layout.shapeCast_a_a1_apply (dinv x1) shapeCasts_S100000_S100000x1 n 0

/-- The bias row at (0, k) is the bias at k. -/
theorem biasRow_apply (b : (⟨S128, .f32⟩ : BufTy).Contents (Elt Ideal)) (k : Fin 128) : biasRow b (ix2 (0 : Fin 1) k) = b (ix1 k) :=
  ValueIdx.shapeCast_a_1a_apply b shapeCasts_S128_S1x128 0 k

theorem G0_eq (x0 : (⟨S100000x128, .f32⟩ : BufTy).Contents (Elt Ideal)) (x2 : (⟨S128x128, .f32⟩ : BufTy).Contents (Elt Ideal)) (x1 : (⟨S2x1600000, .i32⟩ : BufTy).Contents (Elt Ideal)) :
    G0 x0 x2 (dinv2d x1) = scaled x0 x2 (dinv x1) := by
  funext i
  exact congrArg (fun z => (∑ k : Fin 128, x0 (ix2 (i 0) k) * x2 (ix2 k (i 1))) * z) (dinv2d_apply x1 (i 0))

theorem G1_eq (A : (⟨S100000x128, .f32⟩ : BufTy).Contents (Elt Ideal)) (b : (⟨S128, .f32⟩ : BufTy).Contents (Elt Ideal))
    (W : (⟨S128x128, .f32⟩ : BufTy).Contents (Elt Ideal)) (x1 : (⟨S2x1600000, .i32⟩ : BufTy).Contents (Elt Ideal)) :
    G1 (dinv2d x1) A (biasRow b) W = scaled (actK A (dinv x1) b) W (dinv x1) := by
  funext i
  show (∑ k : Fin 128, max (A (ix2 (i 0) k) * dinv2d x1 (ix2 (i 0) (0 : Fin 1)) + biasRow b (ix2 (0 : Fin 1) k)) 0 * W (ix2 k (i 1)))
      * dinv2d x1 (ix2 (i 0) (0 : Fin 1))
    = (∑ k : Fin 128, max (A (ix2 (i 0) k) * dinv x1 (ix1 (i 0)) + b (ix1 k)) 0 * W (ix2 k (i 1))) * dinv x1 (ix1 (i 0))
  rw [dinv2d_apply x1 (i 0)]
  exact congrArg (· * dinv x1 (ix1 (i 0))) (Finset.sum_congr rfl fun k _ => by rw [biasRow_apply b k])

theorem G2_eq (A : (⟨S100000x128, .f32⟩ : BufTy).Contents (Elt Ideal)) (b : (⟨S128, .f32⟩ : BufTy).Contents (Elt Ideal)) (x1 : (⟨S2x1600000, .i32⟩ : BufTy).Contents (Elt Ideal)) :
    G2 (dinv2d x1) A (biasRow b) = actK A (dinv x1) b := by
  funext i
  show max (A i * dinv2d x1 (ix2 (i 0) (0 : Fin 1)) + biasRow b (ix2 (0 : Fin 1) (i 1))) 0
    = max (A i * dinv x1 (ix1 (i 0)) + b (ix1 (i 1))) 0
  rw [dinv2d_apply x1 (i 0), biasRow_apply b (i 1)]

/-- THE RESULT TERM is two layers in the kernel's form. -/
theorem kernelTerm_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    kernelTerm x0 x1 x2 x3 x4 x5
      = layerK scatter_S100000x128_S1700000x1_S1700000x128_1_0_0_1 (dCol x1) (rsK x1) (dinv x1)
          (layerK scatter_S100000x128_S1700000x1_S1700000x128_1_0_0_1 (dCol x1) (rsK x1) (dinv x1) x0 x2 x3) x4 x5 := by
  unfold kernelTerm layerK
  rw [G2_eq, aggOf_eq, G1_eq, aggOf_eq, G0_eq]

end Cert.KernelIdeal.GcnBridge

end
-- ==== Proof.Match.lean ====
import proofs.«164105_j3015067041913_2_alg».proof.Proof.KernelHostDefs
import proofs.«164105_j3015067041913_2_alg».proof.Proof.RefReadP

/-!
# The two programs build the same index columns and the same node weights

Both programs derive, from the edge list, the source and destination indices
with one self-loop per node appended, the destination and (wrapped) source
columns, the in-degree and its inverse square root, by the same operations in
the same order.  Each statement here says that a term of the one program is the
corresponding stage of the other; the two sides are the same operations applied
to the same operands, differing only in the names of the (equal) shapes and in
the proofs of the operations' side conditions.
-/

noncomputable section

namespace Cert.Match

open Idealize.ShloMosaic

/-! ## The dimension records -/

/-- The row scatter's dimension numbers are the same record. -/
theorem sd_eq :
    Cert.KernelIdeal.scatter_S100000x128_S1700000x1_S1700000x128_1_0_0_1
      = Cert.ReferenceIdeal.scatter_S100000x128_S1700000x1_S1700000x128_1_0_0_1 := rfl

/-- The row gather's dimension numbers are the same record. -/
theorem gd_eq :
    Cert.KernelIdeal.gather_S100000x128_S1700000x1_S1700000x128_1_0_n_n_0_1_1128
      = Cert.ReferenceIdeal.gather_S100000x128_S1700000x1_S1700000x128_1_0_n_n_0_1_1128 := rfl

/-- The flat scatter's dimension numbers are the same record. -/
theorem sd1_eq :
    Cert.KernelIdeal.scatter_S100000_S1700000x1_S1700000_n_0_0_1
      = Cert.ReferenceIdeal.scatter_S100000_S1700000x1_S1700000_n_0_0_1 := rfl

/-! ## The index vectors and columns -/

/-- Source indices with the self-loops appended. -/
theorem sIdx_eq (x1 : (⟨Cert.ReferenceIdeal.S2x1600000, .i32⟩ : BufTy).Contents (Elt Ideal)) :
    Cert.KernelIdeal.GcnHost.sIdx x1 = Cert.ReferenceIdeal.ReadP.val_main_v6 (F := Ideal) x1 := by
  unfold Cert.KernelIdeal.GcnHost.sIdx Cert.ReferenceIdeal.ReadP.val_main_v6
    Cert.ReferenceIdeal.ReadP.val_main_v1 Cert.ReferenceIdeal.ReadP.val_main_v0
    Cert.ReferenceIdeal.ReadP.val_main_v5
  rfl

/-- Destination indices with the self-loops appended. -/
theorem dIdx_eq (x1 : (⟨Cert.ReferenceIdeal.S2x1600000, .i32⟩ : BufTy).Contents (Elt Ideal)) :
    Cert.KernelIdeal.GcnHost.dIdx x1 = Cert.ReferenceIdeal.ReadP.val_main_v7 (F := Ideal) x1 := by
  unfold Cert.KernelIdeal.GcnHost.dIdx Cert.ReferenceIdeal.ReadP.val_main_v7
    Cert.ReferenceIdeal.ReadP.val_main_v3 Cert.ReferenceIdeal.ReadP.val_main_v2
    Cert.ReferenceIdeal.ReadP.val_main_v5
  rfl

/-- The raw destination column the row scatter reads. -/
theorem dCol_eq (x1 : (⟨Cert.ReferenceIdeal.S2x1600000, .i32⟩ : BufTy).Contents (Elt Ideal)) :
    Cert.KernelIdeal.GcnHost.dCol x1 = Cert.ReferenceIdeal.ReadP.val_main_v42 (F := Ideal) x1 := by
  unfold Cert.KernelIdeal.GcnHost.dCol Cert.ReferenceIdeal.ReadP.val_main_v42
  rw [dIdx_eq]

/-- The same column as the degree scatter reads it. -/
theorem dCol_eq10 (x1 : (⟨Cert.ReferenceIdeal.S2x1600000, .i32⟩ : BufTy).Contents (Elt Ideal)) :
    Cert.KernelIdeal.GcnHost.dCol x1 = Cert.ReferenceIdeal.ReadP.val_main_v10 (F := Ideal) x1 := by
  unfold Cert.KernelIdeal.GcnHost.dCol Cert.ReferenceIdeal.ReadP.val_main_v10
  rw [dIdx_eq]

/-- The wrapped source column the row gather reads. -/
theorem sCol_eq (x1 : (⟨Cert.ReferenceIdeal.S2x1600000, .i32⟩ : BufTy).Contents (Elt Ideal)) :
    Cert.KernelIdeal.GcnHost.sCol x1 = Cert.ReferenceIdeal.ReadP.val_main_v36 (F := Ideal) x1 := by
  unfold Cert.KernelIdeal.GcnHost.sCol Cert.ReferenceIdeal.ReadP.val_main_v36
    Cert.ReferenceIdeal.ReadP.val_main_v35 Cert.ReferenceIdeal.ReadP.val_main_v32
    Cert.ReferenceIdeal.ReadP.val_main_v34 Cert.ReferenceIdeal.ReadP.val_main_v31
    Cert.ReferenceIdeal.ReadP.val_main_v33 Cert.ReferenceIdeal.ReadP.val_main_c_6
    Cert.ReferenceIdeal.ReadP.val_main_c_7
  rw [sIdx_eq]

/-! ## The degree and the node weight -/

/-- The in-degree. -/
theorem deg_eq (x1 : (⟨Cert.ReferenceIdeal.S2x1600000, .i32⟩ : BufTy).Contents (Elt Ideal)) :
    Cert.KernelIdeal.GcnHost.deg x1 = Cert.ReferenceIdeal.ReadP.val_main_v11 (F := Ideal) x1 := by
  unfold Cert.KernelIdeal.GcnHost.deg Cert.ReferenceIdeal.ReadP.val_main_v11
    Cert.ReferenceIdeal.ReadP.val_main_v9 Cert.ReferenceIdeal.ReadP.val_main_v8
    Cert.ReferenceIdeal.ReadP.val_main_cst_0 Cert.ReferenceIdeal.ReadP.val_main_cst
  rw [dCol_eq10]
  rfl

/-- The inverse square root of the degree where it is positive, zero elsewhere. -/
theorem dinv_eq (x1 : (⟨Cert.ReferenceIdeal.S2x1600000, .i32⟩ : BufTy).Contents (Elt Ideal)) :
    Cert.KernelIdeal.GcnHost.dinv x1 = Cert.ReferenceIdeal.ReadP.val_main_v15 (F := Ideal) x1 := by
  unfold Cert.KernelIdeal.GcnHost.dinv Cert.ReferenceIdeal.ReadP.val_main_v15
    Cert.ReferenceIdeal.ReadP.val_main_v13 Cert.ReferenceIdeal.ReadP.val_main_v14
    Cert.ReferenceIdeal.ReadP.val_main_v12 Cert.ReferenceIdeal.ReadP.val_main_call0_v1
    Cert.ReferenceIdeal.ReadP.val_main_call0_v0 Cert.ReferenceIdeal.ReadP.val_main_cst_1
    Cert.ReferenceIdeal.ReadP.val_main_cst_2
  rw [deg_eq]

end Cert.Match

end
-- ==== Proof.RefValue.lean ====
/-
  THE REFERENCE PROGRAM COMPUTES TWO GRAPH-CONVOLUTION LAYERS.

  Read back through its operations, the program's last stage is the reference form of a layer applied twice,

    out[n, c] = max (Σ_{e lands on n} (X·W)[rs e, c] · (dinv[rs e] · dinv[rd e]) + b[c]) 0.

  Per layer the program multiplies X by W, gathers row rs e of the product for every edge e, multiplies it by the edge's
  weight dinv[rs e] · dinv[rd e] (two flat gathers of dinv, at the source and at the destination column), scatter-adds
  these messages at the raw destination column into a zero array, adds the bias row and clips at zero. The index
  columns and dinv depend on the edge list only, so the second layer's are the first layer's, term for term; the second
  layer's features are the first layer's output.

-/
import proofs.«164105_j3015067041913_2_alg».proof.Proof.RefReadP
import proofs.«164105_j3015067041913_2_alg».proof.Proof.GcnSpec
import proofs.«164105_j3015067041913_2_alg».proof.Proof.LibGatherRows
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.GatherRows Cert.Gcn
open scoped BigOperators

/-- Node features, and a layer's output: [100000, 128]. -/
abbrev TFeat : Type := (⟨S100000x128, .f32⟩ : BufTy).Contents (Elt Ideal)
/-- The edge list: [2, 1600000] integer words. -/
abbrev TEdges : Type := (⟨S2x1600000, .i32⟩ : BufTy).Contents (Elt Ideal)
/-- A weight matrix: [128, 128]. -/
abbrev TW : Type := (⟨S128x128, .f32⟩ : BufTy).Contents (Elt Ideal)
/-- A bias: [128]. -/
abbrev TBias : Type := (⟨S128, .f32⟩ : BufTy).Contents (Elt Ideal)
/-- One message row per edge: [1700000, 128]. -/
abbrev TMsg : Type := (⟨S1700000x128, .f32⟩ : BufTy).Contents (Elt Ideal)
local notation "sdR" => scatter_S100000x128_S1700000x1_S1700000x128_1_0_0_1
local notation "gdR" => gather_S100000x128_S1700000x1_S1700000x128_1_0_n_n_0_1_1128
local notation "gdF" => gather_S100000_S1700000x1_S1700000_n_0_n_n_0_1_1

/-- There is at least one row. -/
theorem rows_pos : 0 < 100000 := by decide

/-! ## The index columns and the per-node weight, as functions of the edge list -/

/-- The raw destination column the scatter reads. -/
def dcol (x1 : TEdges) : IVec SC 32 := val_main_v42 (F := Ideal) x1

/-- The source row of edge e: the wrapped source word, clamped into the rows. -/
def rs (x1 : TEdges) : Fin 1700000 → Fin 100000 :=
  fun e => clampRow 100000 rows_pos (val_main_v36 (F := Ideal) x1 (ix2 e ⟨0, Nat.one_pos⟩) : BitVec 32)

/-- The destination row of edge e: the wrapped destination word, clamped into the rows. -/
def rd (x1 : TEdges) : Fin 1700000 → Fin 100000 :=
  fun e => clampRow 100000 rows_pos (val_main_v28 (F := Ideal) x1 (ix2 e ⟨0, Nat.one_pos⟩) : BitVec 32)

/-- The per-node weight: the inverse square root of the in-degree where that is positive, zero elsewhere. -/
def dinv (x1 : TEdges) : SV.Idx → EReal := val_main_v15 (F := Ideal) x1

/-! ## One layer from the matrix product on, for any product H, at any float instance

Everything in this section only re-spells the generated stage definitions, so it is stated for every float
instance F: nothing is computed. -/

section Generic

variable {F : FTy → Type} [FloatOps F]

/-- The messages: row (source of e) of H times the edge's weight. -/
def msgs (H : (⟨S100000x128, .f32⟩ : BufTy).Contents (Elt F)) (x1 : (⟨S2x1600000, .i32⟩ : BufTy).Contents (Elt F)) :
    (⟨S1700000x128, .f32⟩ : BufTy).Contents (Elt F) :=
  mulf (Host.gather gdR H (val_main_v36 (F := F) x1)) (val_main_v39 (F := F) x1)

/-- Scatter-add the messages into zeros, add the bias row, clip at zero. -/
def stage (H : (⟨S100000x128, .f32⟩ : BufTy).Contents (Elt F)) (x1 : (⟨S2x1600000, .i32⟩ : BufTy).Contents (Elt F))
    (b : (⟨S128, .f32⟩ : BufTy).Contents (Elt F)) : (⟨S100000x128, .f32⟩ : BufTy).Contents (Elt F) :=
  maximumf (addf (Host.scatterAdd sdR (val_main_v41 (F := F)) (val_main_v42 (F := F) x1) (msgs H x1))
    (val_main_v45 (F := F) b)) (val_main_call1_v0 (F := F))

/-- A message read at an index. -/
theorem msgs_apply0 (H : (⟨S100000x128, .f32⟩ : BufTy).Contents (Elt F))
    (x1 : (⟨S2x1600000, .i32⟩ : BufTy).Contents (Elt F)) (j : S1700000x128.Idx) :
    msgs H x1 j = FloatOps.mulf (Host.gather gdR H (val_main_v36 (F := F) x1) j) (val_main_v39 (F := F) x1 j) := rfl

/-- The layer's last stage read at an index. -/
theorem stage_apply0 (H : (⟨S100000x128, .f32⟩ : BufTy).Contents (Elt F))
    (x1 : (⟨S2x1600000, .i32⟩ : BufTy).Contents (Elt F)) (b : (⟨S128, .f32⟩ : BufTy).Contents (Elt F))
    (i : S100000x128.Idx) :
    stage H x1 b i
      = FloatOps.maximumf
          (FloatOps.addf
            (FloatOps.hostScatterAdd sdR .single (val_main_v41 (F := F)) (val_main_v42 (F := F) x1) (msgs H x1) i)
            (val_main_v45 (F := F) b i))
          (val_main_call1_v0 (F := F) i) := rfl

/-- The source column the weight is gathered at is the source column the rows are gathered at: the same operations
    on the same arguments. -/
theorem v21_eq_v36 (x1 : (⟨S2x1600000, .i32⟩ : BufTy).Contents (Elt F)) :
    val_main_v21 (F := F) x1 = val_main_v36 (F := F) x1 := rfl

/-- The first layer's last stage is the layer on the product of the features and the first weights. -/
theorem v47_stage (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F)) :
    val_main_v47 (F := F) x0 x1 x2 x3 = stage (val_main_v4 (F := F) x0 x2) x1 x3 := rfl

/-! The second layer recomputes the index columns and dinv from the edge list by the same operations on the same
    arguments, so each is the first layer's, term for term. -/

theorem v50_eq (x1 : (⟨S2x1600000, .i32⟩ : BufTy).Contents (Elt F)) : val_main_v50 (F := F) x1 = val_main_v6 (F := F) x1 := rfl
theorem v51_eq (x1 : (⟨S2x1600000, .i32⟩ : BufTy).Contents (Elt F)) : val_main_v51 (F := F) x1 = val_main_v7 (F := F) x1 := rfl
theorem v86_eq (x1 : (⟨S2x1600000, .i32⟩ : BufTy).Contents (Elt F)) : val_main_v86 (F := F) x1 = val_main_v42 (F := F) x1 := rfl
theorem v80_eq (x1 : (⟨S2x1600000, .i32⟩ : BufTy).Contents (Elt F)) : val_main_v80 (F := F) x1 = val_main_v36 (F := F) x1 := rfl
theorem v72_eq (x1 : (⟨S2x1600000, .i32⟩ : BufTy).Contents (Elt F)) : val_main_v72 (F := F) x1 = val_main_v28 (F := F) x1 := rfl
theorem v65_eq (x1 : (⟨S2x1600000, .i32⟩ : BufTy).Contents (Elt F)) : val_main_v65 (F := F) x1 = val_main_v21 (F := F) x1 := rfl
theorem v59_eq (x1 : (⟨S2x1600000, .i32⟩ : BufTy).Contents (Elt F)) : val_main_v59 (F := F) x1 = val_main_v15 (F := F) x1 := rfl
theorem v85_eq : val_main_v85 (F := F) = val_main_v41 (F := F) := rfl
theorem v89_eq (b : (⟨S128, .f32⟩ : BufTy).Contents (Elt F)) : val_main_v89 (F := F) b = val_main_v45 (F := F) b := rfl
theorem call3_eq : val_main_call3_v0 (F := F) = val_main_call1_v0 (F := F) := rfl

/-- The second layer's broadcast edge weights are the first layer's. -/
theorem v83_eq (x1 : (⟨S2x1600000, .i32⟩ : BufTy).Contents (Elt F)) : val_main_v83 (F := F) x1 = val_main_v39 (F := F) x1 := by
  unfold val_main_v83 val_main_v82 val_main_v74 val_main_v73 val_main_v66
    val_main_v39 val_main_v38 val_main_v30 val_main_v29 val_main_v22
  rw [v59_eq, v65_eq, v72_eq]

/-- The program's last stage is the layer on the product of the first layer's output and the second weights. -/
theorem v91_stage (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F)) :
    val_main_v91 (F := F) x0 x1 x2 x3 x4 x5
      = stage (val_main_v4 (F := F) (val_main_v47 (F := F) x0 x1 x2 x3) x4) x1 x5 := by
  unfold val_main_v91 val_main_v90 val_main_v87 val_main_v84 val_main_v81
  rw [v80_eq, v83_eq, v85_eq, v86_eq, v89_eq, call3_eq]
  rfl

end Generic

/-! ## The same at exact arithmetic -/

/-- The array the scatter accumulates into is zero everywhere. -/
theorem v41_zero : val_main_v41 (F := Ideal) = fun _ => (0 : EReal) := by
  funext i
  rw [val_main_v41_apply, val_main_cst_8_apply]
  exact Ideal.ofBits_zero_f32

/-- The array the result is clipped against is zero everywhere. -/
theorem relu_zero (i : S100000x128.Idx) : val_main_call1_v0 (F := Ideal) i = (0 : EReal) := by
  rw [val_main_call1_v0_apply, val_main_call1_cst_apply]
  exact Ideal.ofBits_zero_f32

/-- The bias row broadcast over the nodes, read at (n, c), is b[c]. -/
theorem bias_apply (b : TBias) (i : S100000x128.Idx) : val_main_v45 (F := Ideal) b i = b (ix1 (i 1)) := by
  rw [val_main_v45_apply, val_main_v44_apply]
  refine congrArg b ?_
  funext a
  match a with
  | ⟨0, _⟩ => rfl

/-- The program's matrix product is X·W. -/
theorem dot_eq_lin (X : TFeat) (W : TW) : val_main_v4 (F := Ideal) X W = lin X W := by
  funext i
  rw [val_main_v4_apply]
  unfold lin
  refine Finset.sum_congr rfl fun k _ => ?_
  have hl : lidx_main_v4 i k = ix2 (n0 := 100000) (n1 := 128) (i 0) k := by
    funext a
    match a with
    | ⟨0, _⟩ => rfl
    | ⟨1, _⟩ => rfl
  have hr : ridx_main_v4 i k = ix2 (n0 := 128) (n1 := 128) k (i 1) := by
    funext a
    match a with
    | ⟨0, _⟩ => rfl
    | ⟨1, _⟩ => rfl
  exact congrArg₂ (fun a b : EReal => a * b) (congrArg X hl) (congrArg W hr)

/-- The row gather read at (e, k): H at the clamped start word of e, column k. -/
theorem rows_gather (H : TFeat) (idx : IVec S1700000x1 32) (e : Fin 1700000) (k : Fin 128) :
    Host.gather gdR H idx (ix2 e k) = H (ix2 (clampRow 100000 rows_pos (idx (ix2 e ⟨0, Nat.one_pos⟩))) k) :=
  gather_rows_apply rows_pos gather_S100000x128_S1700000x1_S1700000x128_1_0_n_n_0_1_1128_wf H idx e k

/-- The flat gather read at e: x at the clamped start word of e. -/
theorem flat_gather (x : (⟨S100000, .f32⟩ : BufTy).Contents (Elt Ideal)) (idx : IVec S1700000x1 32) (e : Fin 1700000) :
    Host.gather gdF x idx (ix1 e) = x (ix1 (clampRow 100000 rows_pos (idx (ix2 e ⟨0, Nat.one_pos⟩)))) :=
  gather_flat_apply rows_pos gather_S100000_S1700000x1_S1700000_n_0_n_n_0_1_1_wf x idx e

/-- The edge's weight: dinv at its source row times dinv at its destination row. -/
theorem weight_apply (x1 : TEdges) (e : Fin 1700000) :
    val_main_v30 (F := Ideal) x1 (ix1 e) = dinv x1 (ix1 (rs x1 e)) * dinv x1 (ix1 (rd x1 e)) := by
  rw [val_main_v30_apply, Ideal.mulf_def]
  unfold val_main_v22 val_main_v29
  rw [flat_gather, flat_gather, v21_eq_v36]
  rfl

/-- A message read at (e, k). -/
theorem msgs_apply (H : TFeat) (x1 : TEdges) (e : Fin 1700000) (k : Fin 128) :
    msgs (F := Ideal) H x1 (ix2 e k) = H (ix2 (rs x1 e) k) * (dinv x1 (ix1 (rs x1 e)) * dinv x1 (ix1 (rd x1 e))) := by
  rw [msgs_apply0, Ideal.mulf_def, rows_gather, val_main_v39_apply, val_main_v38_apply]
  have hidx : idx_main_v38 (idx_main_v39 (ix2 e k)) = ix1 e := by
    funext a
    match a with
    | ⟨0, _⟩ => rfl
  rw [hidx, weight_apply]
  rfl

/-- The messages are the reference's weighted rows. -/
theorem msgs_eq (X : TFeat) (W : TW) (x1 : TEdges) :
    msgs (F := Ideal) (lin X W) x1 = weighted (lin X W) (dinv x1) (rs x1) (rs x1) (rd x1) := by
  funext j
  obtain ⟨e, k, rfl⟩ : ∃ (e : Fin 1700000) (k : Fin 128), j = ix2 e k := ⟨j 0, j 1, eq_ix2 j⟩
  exact msgs_apply (lin X W) x1 e k

/-- The layer's last stage read at an index, in exact arithmetic. -/
theorem stage_apply (H : TFeat) (x1 : TEdges) (b : TBias) (i : S100000x128.Idx) :
    stage (F := Ideal) H x1 b i
      = max (Ideal.hostScatterAdd sdR (val_main_v41 (F := Ideal)) (val_main_v42 (F := Ideal) x1) (msgs H x1) i
          + val_main_v45 (F := Ideal) b i) (val_main_call1_v0 (F := Ideal) i) := by
  rw [stage_apply0, Ideal.maximumf_def, Ideal.addf_def, Ideal.hostScatterAdd_def]

/-- ONE LAYER: from the product X·W on, the program's stages are the reference form of a layer. -/
theorem stage_eq (X : TFeat) (W : TW) (b : TBias) (x1 : TEdges) :
    stage (F := Ideal) (val_main_v4 (F := Ideal) X W) x1 b
      = layerR sdR (dcol x1) (rs x1) (rs x1) (rd x1) (dinv x1) X W b := by
  rw [dot_eq_lin]
  funext i
  rw [stage_apply, v41_zero, msgs_eq, bias_apply, relu_zero]
  unfold layerR actR dcol
  rfl

/-! ## The two layers of the program -/

/-- THE FIRST LAYER. -/
theorem layer1 (x0 : TFeat) (x1 : TEdges) (x2 : TW) (x3 : TBias) :
    val_main_v47 (F := Ideal) x0 x1 x2 x3
      = layerR sdR (dcol x1) (rs x1) (rs x1) (rd x1) (dinv x1) x0 x2 x3 :=
  (v47_stage x0 x1 x2 x3).trans (stage_eq x0 x2 x3 x1)

/-- THE PROGRAM'S VALUE: two layers in the reference form, the second on the first's output. -/
theorem ref_value (x0 : TFeat) (x1 : TEdges) (x2 : TW) (x3 : TBias) (x4 : TW) (x5 : TBias) :
    val_main_v91 (F := Ideal) x0 x1 x2 x3 x4 x5
      = layerR sdR (dcol x1) (rs x1) (rs x1) (rd x1) (dinv x1)
          (layerR sdR (dcol x1) (rs x1) (rs x1) (rd x1) (dinv x1) x0 x2 x3) x4 x5 := by
  rw [v91_stage, stage_eq, layer1]

end Cert.ReferenceIdeal.RefValue

end
-- ==== Proof.RefLands.lean ====
import proofs.«164105_j3015067041913_2_alg».proof.Proof.RefReadP
import proofs.«164105_j3015067041913_2_alg».proof.Proof.GcnSpec
import proofs.«164105_j3015067041913_2_alg».proof.Proof.LibGatherRows
import Idealize.ShloMosaic.Lib.Affine

/-!
# Where a message lands, and the row its destination weight is read at

The aggregation scatters message (e, k) to row d e of the result, where d e is
the destination word of edge e read as a signed integer, and drops it when that
row does not exist.  The destination weight of edge e is read at the row the
wrapped word d̃ e clamps to, where d̃ e = d e + 100000 if d e < 0 and d e
otherwise.  If message (e, k) lands on entry (n, c) then d e reads as n, which
is not negative: the wrap leaves the word alone and the clamp gives n.
-/

noncomputable section

namespace Cert.ReferenceIdeal.RefLands

open Cert.ReferenceIdeal Cert.ReferenceIdeal.Gen Cert.ReferenceIdeal.ReadP Idealize.ShloMosaic
  Idealize.ShloMosaic.ValueIdx Idealize.ShloMosaic.GatherRows

/-- At a position of the column whose raw destination word reads as the row
number n, the wrapped destination word is the same word and clamps to n. -/
theorem clamp_wrapped_of_raw (x1 : (⟨S2x1600000, .i32⟩ : BufTy).Contents (Elt Ideal)) (c : S1700000x1.Idx)
    (n : Fin 100000) (hd : BitVec.toInt (val_main_v42 (F := Ideal) x1 c) = (n.val : Int)) :
    clampRow 100000 (by decide) (val_main_v28 (F := Ideal) x1 c) = n := by
  -- both columns read the index vector at the same position
  have hidx : idx_main_v28 c = idx_main_v42 c := by
    funext a; match a with | ⟨0, _⟩ => rfl
  rw [val_main_v42_apply] at hd
  rw [val_main_v28_apply, val_main_v27_apply, val_main_v24_apply, val_main_v23_apply,
    val_main_c_4_apply, hidx]
  generalize val_main_v7 (F := Ideal) x1 (idx_main_v42 c) = d at hd ⊢
  -- a word that reads as a natural number is not below zero
  have hc : ¬ (IntOp.cmpi .slt d 0#32 = 1) := fun hlt => by
    have h1 : d.toInt < (0#32 : BitVec 32).toInt := IntOp.cmpi_slt.mp hlt
    have hz : (0#32 : BitVec 32).toInt = 0 := BitVec.toInt_zero
    rw [hd, hz] at h1
    omega
  unfold Scalar.select
  rw [if_neg hc]
  exact clampRow_of_toInt _ d n hd

/-- A message (e, k) that the aggregation lands on entry (n, c): the row the
destination weight of edge e is read at is n. -/
theorem lands (x1 : (⟨S2x1600000, .i32⟩ : BufTy).Contents (Elt Ideal)) (j : Cert.Gcn.SE.Idx) (i : Cert.Gcn.SN.Idx)
    (h : scatter_S100000x128_S1700000x1_S1700000x128_1_0_0_1.resultIdx? j (val_main_v42 (F := Ideal) x1) = some i) :
    clampRow 100000 (by decide) (val_main_v28 (F := Ideal) x1 (ix2 (j 0) ⟨0, Nat.one_pos⟩)) = i 0 := by
  -- the program's dimension record is the row scatter's; both indices as pairs of coordinates
  have h' : (rowsScatterDims 100000 1700000 128 Cert.ReferenceIdeal.Gen.scatter_S100000x128_S1700000x1_S1700000x128_1_0_0_1_wf).resultIdx?
      (ix2 (j 0) (j 1)) (val_main_v42 (F := Ideal) x1) = some (ix2 (i 0) (i 1)) := by
    have hj : j = ix2 (j 0) (j 1) := eq_ix2 j
    have hi : i = ix2 (i 0) (i 1) := eq_ix2 i
    rw [hj, hi] at h
    exact h
  have hd := (scatter_rows_lands (N := 100000) (E := 1700000) (D := 128)
    Cert.ReferenceIdeal.Gen.scatter_S100000x128_S1700000x1_S1700000x128_1_0_0_1_wf (val_main_v42 (F := Ideal) x1) (j 0) (j 1) (i 0) (i 1) h').1
  exact clamp_wrapped_of_raw x1 _ (i 0) hd

end Cert.ReferenceIdeal.RefLands

end
-- ==== Proof.DinvReal.lean ====
import proofs.«164105_j3015067041913_2_alg».proof.Proof.RefReadP
import proofs.«164105_j3015067041913_2_alg».proof.Proof.LibRealSums
import Idealize.ShloMosaic.PureOps.Ideal
import Idealize.ShloMosaic.PureOps.Ideal.Laws

/-!
# The inverse square root of the degree is a real number

The degree of a node is an accumulation of ones into zero: a finite sum of
ones, hence a real number.  The normalisation factor is the inverse square
root of the degree where the degree is positive and zero elsewhere.  The
inverse square root of a positive real is a real; the other branch is zero.
Either way the factor is a real number.  Both layers compute the factor by
the same operations, so the statement is given for each.
-/

noncomputable section

namespace Cert.ReferenceIdeal.DinvReal

open Cert.ReferenceIdeal Cert.ReferenceIdeal.Gen Cert.ReferenceIdeal.ReadP Idealize.ShloMosaic
  Idealize.ShloMosaic.ValueIdx Cert.RealSums

/-- The pattern of 1.0 denotes the real number 1. -/
theorem ofBits_one : Ideal.ofBits .f32 0x3F800000#32 = (1 : EReal) := by
  simp [Ideal.ofBits, Ideal.ieee, -EReal.coe_mul]; norm_num

/-- The real number 1, as an extended real, is a real number. -/
theorem isReal_one : IsReal (1 : EReal) := ⟨1, EReal.coe_one.symm⟩

/-- The inverse square root of a positive real number is a real number. -/
theorem rsqrt_isReal_of_pos {x : EReal} (hx : IsReal x) (hpos : 0 < x) : IsReal (Ideal.rsqrt x) := by
  obtain ⟨r, rfl⟩ := hx
  have hr : 0 < r := EReal.coe_pos.mp hpos
  rw [Ideal.rsqrt_coe, if_neg (not_lt.mpr hr.le), if_neg hr.ne']
  exact IsReal.coe _

/-- For any real degree: the inverse square root where the degree exceeds
zero, and zero elsewhere, is a real number.  (z and z' are the two zeros the
comparison and the other branch read.) -/
theorem select_isReal {deg z z' : EReal} (hz : z = 0) (hz' : z' = 0) (hd : IsReal deg) :
    IsReal (Scalar.select (Ideal.cmp .ogt deg z) (Ideal.rsqrt deg) z') := by
  subst hz hz'
  by_cases h : (0 : EReal) < deg
  · have hc : Ideal.cmp .ogt deg 0 = 1#1 := by
      show BitVec.ofBool (decide ((0 : EReal) < deg)) = 1#1
      rw [decide_eq_true h]; rfl
    rw [hc]
    show IsReal (if (1#1 : BitVec 1) = 1 then Ideal.rsqrt deg else 0)
    rw [if_pos (show (1#1 : BitVec 1) = 1 from rfl)]
    exact rsqrt_isReal_of_pos hd h
  · have hc : Ideal.cmp .ogt deg 0 = 0#1 := by
      show BitVec.ofBool (decide ((0 : EReal) < deg)) = 0#1
      rw [decide_eq_false h]; rfl
    rw [hc]
    show IsReal (if (0#1 : BitVec 1) = 1 then Ideal.rsqrt deg else 0)
    rw [if_neg (show ¬ (0#1 : BitVec 1) = 1 by decide)]
    exact IsReal.zero

/-- An accumulating scatter of real updates into a real operand is real at
every index: the operand's entry plus a finite sum of updates. -/
theorem scatterAdd_isReal {s si su : Shape} (d : ScatterDims s si su) {w : Nat}
    (x : FVec Ideal s .f32) (idx : IVec si w) (upd : FVec Ideal su .f32)
    (hx : ∀ i, IsReal (x i)) (hu : ∀ j, IsReal (upd j)) (n : s.Idx) :
    IsReal (Host.scatterAdd d x idx upd n) := by
  unfold Host.scatterAdd
  rw [Ideal.hostScatterAdd_def]
  unfold Ideal.hostScatterAdd
  exact IsReal.add (hx n) (IsReal.sum _ _ fun j _ => hu j)

/-- The degree of a node — zero plus the sum of the ones that land on it — is
a real number. -/
theorem deg_isReal (x1 : (⟨S2x1600000, .i32⟩ : BufTy).Contents (Elt Ideal)) (n : S100000.Idx) :
    IsReal (val_main_v11 (F := Ideal) x1 n) := by
  unfold val_main_v11
  refine scatterAdd_isReal _ _ _ _ (fun i => ?_) (fun j => ?_) n
  · rw [val_main_v9_apply, val_main_cst_0_apply, Ideal.ofBits_def, Ideal.ofBits_zero_f32]
    exact IsReal.zero
  · rw [val_main_v8_apply, val_main_cst_apply, Ideal.ofBits_def, ofBits_one]
    exact isReal_one

/-- The normalisation factor of a node is a real number. -/
theorem dinv_isReal (x1 : (⟨S2x1600000, .i32⟩ : BufTy).Contents (Elt Ideal)) (n : S100000.Idx) :
    IsReal (val_main_v15 (F := Ideal) x1 n) := by
  rw [val_main_v15_apply, val_main_v13_apply, val_main_v14_apply, Ideal.hostUnary_rsqrt_def,
    Ideal.cmpf_def]
  refine select_isReal ?_ ?_ (deg_isReal x1 n)
  · rw [val_main_v12_apply, val_main_cst_1_apply, Ideal.ofBits_def, Ideal.ofBits_zero_f32]
  · rw [val_main_call0_v1_apply, val_main_call0_v0_apply, val_main_cst_2_apply, Ideal.ofBits_def,
      Ideal.ofBits_zero_f32]

/-- The second layer's degree is the same sum of ones. -/
theorem deg2_isReal (x1 : (⟨S2x1600000, .i32⟩ : BufTy).Contents (Elt Ideal)) (n : S100000.Idx) :
    IsReal (val_main_v55 (F := Ideal) x1 n) := by
  unfold val_main_v55
  refine scatterAdd_isReal _ _ _ _ (fun i => ?_) (fun j => ?_) n
  · rw [val_main_v53_apply, val_main_cst_10_apply, Ideal.ofBits_def, Ideal.ofBits_zero_f32]
    exact IsReal.zero
  · rw [val_main_v52_apply, val_main_cst_9_apply, Ideal.ofBits_def, ofBits_one]
    exact isReal_one

/-- The second layer's normalisation factor of a node is a real number. -/
theorem dinv2_isReal (x1 : (⟨S2x1600000, .i32⟩ : BufTy).Contents (Elt Ideal)) (n : S100000.Idx) :
    IsReal (val_main_v59 (F := Ideal) x1 n) := by
  rw [val_main_v59_apply, val_main_v57_apply, val_main_v58_apply, Ideal.hostUnary_rsqrt_def,
    Ideal.cmpf_def]
  refine select_isReal ?_ ?_ (deg2_isReal x1 n)
  · rw [val_main_v56_apply, val_main_cst_11_apply, Ideal.ofBits_def, Ideal.ofBits_zero_f32]
  · rw [val_main_call2_v1_apply, val_main_call2_v0_apply, val_main_cst_12_apply, Ideal.ofBits_def,
      Ideal.ofBits_zero_f32]

end Cert.ReferenceIdeal.DinvReal

end
-- ==== Proof.Final.lean ====
/-
  THE TWO PROGRAMS COMPUTE ONE FUNCTION OF REAL ARGUMENTS.

  The kernel program's result term is two graph-convolution layers in the kernel's form (the source weight folded into
  the features before the gather, the destination weight applied after the sum); the reference's result is the same two
  layers with the edge weight dinv[s]·dinv[d] inside the sum. Both use the same edge columns and the same per-node
  weight, which is a real number at every node; an edge that the scatter lands on node n has clamped destination n. So
  when the features, weights and first bias are real the law of the layers makes the two results equal.
-/
import proofs.«164105_j3015067041913_2_alg».proof.Proof.GcnSpec
import proofs.«164105_j3015067041913_2_alg».proof.Proof.KernelSpec
import proofs.«164105_j3015067041913_2_alg».proof.Proof.Match
import proofs.«164105_j3015067041913_2_alg».proof.Proof.RefValue
import proofs.«164105_j3015067041913_2_alg».proof.Proof.RefLands
import proofs.«164105_j3015067041913_2_alg».proof.Proof.DinvReal

noncomputable section

namespace Cert.Final

open Idealize.ShloMosaic Idealize.ShloMosaic.ValueIdx Idealize.ShloMosaic.GatherRows Cert.RealSums Cert.Gcn

/-- The kernel's source rows are the reference's. -/
theorem rs_eq (x1 : (⟨Cert.ReferenceIdeal.S2x1600000, .i32⟩ : BufTy).Contents (Elt Ideal)) :
    Cert.KernelIdeal.GcnBridge.rsK x1 = Cert.ReferenceIdeal.RefValue.rs x1 := by
  funext e
  unfold Cert.KernelIdeal.GcnBridge.rsK Cert.ReferenceIdeal.RefValue.rs
  rw [Cert.Match.sCol_eq]

/-- THE VALUE CLAIM on terms: at real arguments the kernel program's result is the reference's. -/
theorem kernel_eq_ref
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (h0 : ∀ i, IsReal (x0 i)) (h2 : ∀ i, IsReal (x2 i)) (h3 : ∀ i, IsReal (x3 i)) (h4 : ∀ i, IsReal (x4 i)) :
    Cert.KernelIdeal.GcnHost.kernelTerm x0 x1 x2 x3 x4 x5
      = Cert.ReferenceIdeal.ReadP.val_main_v91 (F := Ideal) x0 x1 x2 x3 x4 x5 := by
  rw [Cert.KernelIdeal.GcnBridge.kernelTerm_eq, Cert.ReferenceIdeal.RefValue.ref_value]
  have e1 : Cert.KernelIdeal.GcnBridge.rsK x1 = Cert.ReferenceIdeal.RefValue.rs x1 := rs_eq x1
  have e2 : Cert.KernelIdeal.scatter_S100000x128_S1700000x1_S1700000x128_1_0_0_1
      = Cert.ReferenceIdeal.scatter_S100000x128_S1700000x1_S1700000x128_1_0_0_1 := Cert.Match.sd_eq
  have e3 : Cert.KernelIdeal.GcnHost.dCol x1 = Cert.ReferenceIdeal.RefValue.dcol x1 := Cert.Match.dCol_eq x1
  have e4 : Cert.KernelIdeal.GcnHost.dinv x1 = Cert.ReferenceIdeal.RefValue.dinv x1 := Cert.Match.dinv_eq x1
  rw [e1, e2, e3, e4]
  exact twoLayers Cert.ReferenceIdeal.scatter_S100000x128_S1700000x1_S1700000x128_1_0_0_1
    (Cert.ReferenceIdeal.RefValue.dcol x1) (Cert.ReferenceIdeal.RefValue.rs x1) (Cert.ReferenceIdeal.RefValue.rd x1)
    (Cert.ReferenceIdeal.RefValue.dinv x1) x0 x2 x4 x3 x5
    (fun j i h => Cert.ReferenceIdeal.RefLands.lands x1 j i h)
    (fun n => Cert.ReferenceIdeal.DinvReal.dinv_isReal x1 n) h0 h2 h4 h3

end Cert.Final

end
-- ==== Proof.lean ====
/-
  Two graph-convolution layers over 100000 nodes and 1700000 edges (the given 1600000 and one self-loop per node), the
  kernel program against its reference, on the extended reals.

  The reference computes, per layer, out[n] = max (Σ_{e → n} (x·W)[s e] · (dinv[s e] · dinv[d e]) + b) 0 with
  dinv = 1/sqrt(in-degree) (0 where the degree is 0). The kernel program folds the source weight dinv[s e] into the
  features before the gather (inside its first two pallas_calls) and applies the destination weight dinv[n] after the sum
  (inside its last two), and fuses the first layer's epilogue into the second layer's matrix product. The two agree
  because an edge that the scatter sends to node n has destination n, so dinv[d e] is the constant dinv[n] on the sum
  and comes out of it — which needs every term to be a real number (distributivity fails at infinities): the
  precondition makes the features, the weights and the biases real, the degrees are finite counts, and a layer's output is
  then real again. Out-of-range indices are treated alike by both programs: a gather clamps, a scatter drops.

  The modules: GcnSpec (the law), KernelPay / KernelRegions (each pallas_call as one whole-array function of what it finds),
  KernelHostDefs / KernelHost (the kernel program's buffers boundary by boundary, down to its result as one term),
  KernelSpec (that term is the law's kernel form), KernelRun (the run with its result named), RefRunP / RefReadP
  (the reference's run and its stages), RefValue / RefLands / DinvReal (the reference's result is the law's reference form;
  where an edge lands; the weight is real), PreReal (the precondition makes the float arguments real), Match (the two
  programs' index columns and weights are the same terms), Final (the two results are equal).
-/
import proofs.«164105_j3015067041913_2_alg».proof.Defs
import proofs.«164105_j3015067041913_2_alg».proof.Proof.Gen.Kernel
import proofs.«164105_j3015067041913_2_alg».proof.Proof.Gen.Kernel.Frame
import proofs.«164105_j3015067041913_2_alg».proof.Proof.Gen.KernelIdeal
import proofs.«164105_j3015067041913_2_alg».proof.Proof.Gen.KernelIdeal.Frame
import proofs.«164105_j3015067041913_2_alg».proof.Proof.Gen.ReferenceIdeal
import proofs.«164105_j3015067041913_2_alg».proof.Proof.Gen.Pre_finite_inputs
import proofs.«164105_j3015067041913_2_alg».proof.Proof.KernelRun
import proofs.«164105_j3015067041913_2_alg».proof.Proof.KernelHost
import proofs.«164105_j3015067041913_2_alg».proof.Proof.RefRunP
import proofs.«164105_j3015067041913_2_alg».proof.Proof.RefReadP
import proofs.«164105_j3015067041913_2_alg».proof.Proof.PreReal
import proofs.«164105_j3015067041913_2_alg».proof.Proof.Final
import Idealize.ShloMosaic.Adequacy
import Idealize.ShloMosaic.Init

noncomputable section

namespace Cert.Proof

open Idealize.ShloMosaic Idealize.SL.Sem

/-- Each program runs to the end without a fault and leaves its arguments as launched. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments, both idealized programs end with the same result array: the kernel
    program's at its result term of the arguments, the reference's at its last stage, equal on real arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W8 m ρ c (Proc.devRef .tc Cert.KernelIdeal.main_v40),
    Cert.KernelIdeal.GcnRun.run_out m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h2, h3, h4, -⟩ := Cert.Pre_finite_inputs.PreReal.real_of_pre _ _ _ _ _ _ (hpre c)
  rw [Cert.ReferenceIdeal.ReadP.val_main_v91_eq, (hagree c).1, (hagree c).2.1, (hagree c).2.2.1, (hagree c).2.2.2.1,
    (hagree c).2.2.2.2.1, (hagree c).2.2.2.2.2]
  exact ((Cert.KernelIdeal.GcnHost.kernel_value m ρ c).trans (Cert.Final.kernel_eq_ref _ _ _ _ _ _ h0 h2 h3 h4)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
